-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x26 : Shape := ⟨3, ![32, 64, 26]⟩
abbrev S32x256 : Shape := ⟨2, ![32, 256]⟩
abbrev S512x52 : Shape := ⟨2, ![512, 52]⟩
abbrev S512 : Shape := ⟨1, ![512]⟩
abbrev S512x512 : Shape := ⟨2, ![512, 512]⟩
abbrev S512x768 : Shape := ⟨2, ![512, 768]⟩
abbrev S28x512 : Shape := ⟨2, ![28, 512]⟩
abbrev S28 : Shape := ⟨1, ![28]⟩
abbrev S_ : Shape := ⟨0, ![]⟩

class Facts : Prop where
  bcast_S_S32x64x26 : S_.BroadcastsInDim S32x64x26 (![] : Fin 0 → Fin S32x64x26.rank)
  reducesTo_S32x64x26_S_d0_1_2 : S32x64x26.ReducesTo [0, 1, 2] S_
  h_S_ : 0 < S_.numel
  bcast_S_S32x256 : S_.BroadcastsInDim S32x256 (![] : Fin 0 → Fin S32x256.rank)
  reducesTo_S32x256_S_d0_1 : S32x256.ReducesTo [0, 1] S_
  bcast_S_S512x52 : S_.BroadcastsInDim S512x52 (![] : Fin 0 → Fin S512x52.rank)
  reducesTo_S512x52_S_d0_1 : S512x52.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x768 : S_.BroadcastsInDim S512x768 (![] : Fin 0 → Fin S512x768.rank)
  reducesTo_S512x768_S_d0_1 : S512x768.ReducesTo [0, 1] S_
  bcast_S_S28x512 : S_.BroadcastsInDim S28x512 (![] : Fin 0 → Fin S28x512.rank)
  reducesTo_S28x512_S_d0_1 : S28x512.ReducesTo [0, 1] S_
  bcast_S_S28 : S_.BroadcastsInDim S28 (![] : Fin 0 → Fin S28.rank)
  reducesTo_S28_S_d0 : S28.ReducesTo [0] S_

variable [Facts]

def fn_part4 {F : FTy → Type} [FloatOps F] (main_arg14 : FVec F S28x512 .f32) (main_arg15 : FVec F S28 .f32) (main_v63 : IVec S_ 1) (main_v67 : IVec S_ 1) : IVec S_ 1 :=
  let main_v68 : IVec S_ 1 := andi main_v63 main_v67
  let main_v69 : FVec F S28x512 .f32 := Host.absf main_arg14
  let main_cst_26 : FVec F S_ .f32 := constant S_ .f32 0x7F800000#32
  let main_v70 : FVec F S28x512 .f32 := broadcastInDim S28x512 ![] bcast_S_S28x512 main_cst_26
  let main_v71 : IVec S28x512 1 := cmpf .olt main_v69 main_v70
  let main_c_27 : IVec S_ 1 := constantI S_ 1 1#1
  let main_v72 : IVec S_ 1 := (fun x v => Host.reduce IntOp.andi x v reducesTo_S28x512_S_d0_1 h_S_) main_v71 main_c_27
  let main_v73 : IVec S_ 1 := andi main_v68 main_v72
  let main_v74 : FVec F S28 .f32 := Host.absf main_arg15
  let main_cst_28 : FVec F S_ .f32 := constant S_ .f32 0x7F800000#32
  let main_v75 : FVec F S28 .f32 := broadcastInDim S28 ![] bcast_S_S28 main_cst_28
  let main_v76 : IVec S28 1 := cmpf .olt main_v74 main_v75
  let main_c_29 : IVec S_ 1 := constantI S_ 1 1#1
  let main_v77 : IVec S_ 1 := (fun x v => Host.reduce IntOp.andi x v reducesTo_S28_S_d0 h_S_) main_v76 main_c_29
  let main_v78 : IVec S_ 1 := andi main_v73 main_v77
  main_v78

def fn_part3 {F : FTy → Type} [FloatOps F] (main_arg11 : FVec F S512 .f32) (main_arg12 : FVec F S512x512 .f32) (main_arg13 : FVec F S512 .f32) (main_arg14 : FVec F S28x512 .f32) (main_arg15 : FVec F S28 .f32) (main_v48 : IVec S_ 1) (main_v49 : FVec F S512x768 .f32) (main_v50 : FVec F S512x768 .f32) : IVec S_ 1 :=
  let main_v51 : IVec S512x768 1 := cmpf .olt main_v49 main_v50
  let main_c_19 : IVec S_ 1 := constantI S_ 1 1#1
  let main_v52 : IVec S_ 1 := (fun x v => Host.reduce IntOp.andi x v reducesTo_S512x768_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x512 .f32 := Host.absf main_arg12
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_v63 main_v67

def fn_part2 {F : FTy → Type} [FloatOps F] (main_arg7 : FVec F S512 .f32) (main_arg8 : FVec F S512x512 .f32) (main_arg9 : FVec F S512 .f32) (main_arg10 : FVec F S512x768 .f32) (main_arg11 : FVec F S512 .f32) (main_arg12 : FVec F S512x512 .f32) (main_arg13 : FVec F S512 .f32) (main_arg14 : FVec F S28x512 .f32) (main_arg15 : FVec F S28 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x768 .f32 := Host.absf main_arg10
  let main_cst_18 : FVec F S_ .f32 := constant S_ .f32 0x7F800000#32
  let main_v50 : FVec F S512x768 .f32 := broadcastInDim S512x768 ![] bcast_S_S512x768 main_cst_18
  fn_part3 (F := F) main_arg11 main_arg12 main_arg13 main_arg14 main_arg15 main_v48 main_v49 main_v50

def fn_part1 {F : FTy → Type} [FloatOps F] (main_arg4 : FVec F S512x512 .f32) (main_arg5 : FVec F S512 .f32) (main_arg6 : FVec F S512x512 .f32) (main_arg7 : FVec F S512 .f32) (main_arg8 : FVec F S512x512 .f32) (main_arg9 : FVec F S512 .f32) (main_arg10 : FVec F S512x768 .f32) (main_arg11 : FVec F S512 .f32) (main_arg12 : FVec F S512x512 .f32) (main_arg13 : FVec F S512 .f32) (main_arg14 : FVec F S28x512 .f32) (main_arg15 : FVec F S28 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S32x64x26 .f32) (main_arg1 : FVec F S32x256 .f32) (main_arg2 : FVec F S512x52 .f32) (main_arg3 : FVec F S512 .f32) (main_arg4 : FVec F S512x512 .f32) (main_arg5 : FVec F S512 .f32) (main_arg6 : FVec F S512x512 .f32) (main_arg7 : FVec F S512 .f32) (main_arg8 : FVec F S512x512 .f32) (main_arg9 : FVec F S512 .f32) (main_arg10 : FVec F S512x768 .f32) (main_arg11 : FVec F S512 .f32) (main_arg12 : FVec F S512x512 .f32) (main_arg13 : FVec F S512 .f32) (main_arg14 : FVec F S28x512 .f32) (main_arg15 : FVec F S28 .f32) : IVec S_ 1 :=
  let main_v0 : FVec F S32x64x26 .f32 := Host.absf main_arg0
  let main_cst : FVec F S_ .f32 := constant S_ .f32 0x7F800000#32
  let main_v1 : FVec F S32x64x26 .f32 := broadcastInDim S32x64x26 ![] bcast_S_S32x64x26 main_cst
  let main_v2 : IVec S32x64x26 1 := cmpf .olt main_v0 main_v1
  let main_c : IVec S_ 1 := constantI S_ 1 1#1
  let main_v3 : IVec S_ 1 := (fun x v => Host.reduce IntOp.andi x v reducesTo_S32x64x26_S_d0_1_2 h_S_) main_v2 main_c
  let main_v4 : FVec F S32x256 .f32 := Host.absf main_arg1
  let main_cst_0 : FVec F S_ .f32 := constant S_ .f32 0x7F800000#32
  let main_v5 : FVec F S32x256 .f32 := broadcastInDim S32x256 ![] bcast_S_S32x256 main_cst_0
  let main_v6 : IVec S32x256 1 := cmpf .olt main_v4 main_v5
  let main_c_1 : IVec S_ 1 := constantI S_ 1 1#1
  let main_v7 : IVec S_ 1 := (fun x v => Host.reduce IntOp.andi x v reducesTo_S32x256_S_d0_1 h_S_) main_v6 main_c_1
  let main_v8 : IVec S_ 1 := andi main_v3 main_v7
  let main_v9 : FVec F S512x52 .f32 := Host.absf main_arg2
  let main_cst_2 : FVec F S_ .f32 := constant S_ .f32 0x7F800000#32
  let main_v10 : FVec F S512x52 .f32 := broadcastInDim S512x52 ![] bcast_S_S512x52 main_cst_2
  let main_v11 : IVec S512x52 1 := cmpf .olt main_v9 main_v10
  let main_c_3 : IVec S_ 1 := constantI S_ 1 1#1
  let main_v12 : IVec S_ 1 := (fun x v => Host.reduce IntOp.andi x v reducesTo_S512x52_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S32x64x26 : Shape := ⟨3, ![32, 64, 26]⟩
abbrev S32x256 : Shape := ⟨2, ![32, 256]⟩
abbrev S512x52 : Shape := ⟨2, ![512, 52]⟩
abbrev S512 : Shape := ⟨1, ![512]⟩
abbrev S512x512 : Shape := ⟨2, ![512, 512]⟩
abbrev S512x768 : Shape := ⟨2, ![512, 768]⟩
abbrev S28x512 : Shape := ⟨2, ![28, 512]⟩
abbrev S28 : Shape := ⟨1, ![28]⟩
abbrev S512x26 : Shape := ⟨2, ![512, 26]⟩
abbrev S32x1x512 : Shape := ⟨3, ![32, 1, 512]⟩
abbrev S1x64x26 : Shape := ⟨3, ![1, 64, 26]⟩
abbrev S1x1x512 : Shape := ⟨3, ![1, 1, 512]⟩
abbrev S64x26 : Shape := ⟨2, ![64, 26]⟩
abbrev S64x512 : Shape := ⟨2, ![64, 512]⟩
abbrev S1x512 : Shape := ⟨2, ![1, 512]⟩
abbrev S64x1x512 : Shape := ⟨3, ![64, 1, 512]⟩
abbrev S1x64x512 : Shape := ⟨3, ![1, 64, 512]⟩
abbrev S64x64x512 : Shape := ⟨3, ![64, 64, 512]⟩
abbrev S4096x512 : Shape := ⟨2, ![4096, 512]⟩
abbrev S32x512 : Shape := ⟨2, ![32, 512]⟩
abbrev S32x768 : Shape := ⟨2, ![32, 768]⟩
abbrev S768x512 : Shape := ⟨2, ![768, 512]⟩
abbrev S_ : Shape := ⟨0, ![]⟩
abbrev S512x28 : Shape := ⟨2, ![512, 28]⟩
abbrev S32x28 : Shape := ⟨2, ![32, 28]⟩
abbrev S1x28 : Shape := ⟨2, ![1, 28]⟩
abbrev S32 : Shape := ⟨1, ![32]⟩
abbrev S32x1 : Shape := ⟨2, ![32, 1]⟩

abbrev nBuf : Space → Nat
  | .hbm => 63
  | .vmem => 13
  | .smem => 0
  | _ => 0

abbrev bufTy : (tb : Table) → Fin (tcTables nBuf tb) → BufTy
  | .hbm, ⟨0, _⟩ => ⟨S32x64x26, .f32⟩
  | .hbm, ⟨1, _⟩ => ⟨S32x256, .f32⟩
  | .hbm, ⟨2, _⟩ => ⟨S512x52, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x768, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S28x512, .f32⟩
  | .hbm, ⟨15, _⟩ => ⟨S28, .f32⟩
  | .hbm, ⟨16, _⟩ => ⟨S32x64x26, .bf16⟩
  | .hbm, ⟨17, _⟩ => ⟨S512x26, .f32⟩
  | .hbm, ⟨18, _⟩ => ⟨S512x26, .bf16⟩
  | .hbm, ⟨19, _⟩ => ⟨S512x26, .f32⟩
  | .hbm, ⟨20, _⟩ => ⟨S512x26, .bf16⟩
  | .hbm, ⟨21, _⟩ => ⟨S512x512, .bf16⟩
  | .hbm, ⟨22, _⟩ => ⟨S512x512, .bf16⟩
  | .hbm, ⟨23, _⟩ => ⟨S512x512, .bf16⟩
  | .hbm, ⟨24, _⟩ => ⟨S32x1x512, .f32⟩
  | .hbm, ⟨25, _⟩ => ⟨S32x512, .f32⟩
  | .hbm, ⟨26, _⟩ => ⟨S32x768, .f32⟩
  | .hbm, ⟨27, _⟩ => ⟨S768x512, .f32⟩
  | .hbm, ⟨28, _⟩ => ⟨S32x512, .f32⟩
  | .hbm, ⟨29, _⟩ => ⟨S1x512, .f32⟩
  | .hbm, ⟨30, _⟩ => ⟨S32x512, .f32⟩
  | .hbm, ⟨31, _⟩ => ⟨S32x512, .f32⟩
  | .hbm, ⟨32, _⟩ => ⟨S_, .f32⟩
  | .hbm, ⟨33, _⟩ => ⟨S32x512, .f32⟩
  | .hbm, ⟨34, _⟩ => ⟨S32x512, .f32⟩
  | .hbm, ⟨35, _⟩ => ⟨S512x512, .f32⟩
  | .hbm, ⟨36, _⟩ => ⟨S32x512, .f32⟩
  | .hbm, ⟨37, _⟩ => ⟨S1x512, .f32⟩
  | .hbm, ⟨38, _⟩ => ⟨S32x512, .f32⟩
  | .hbm, ⟨39, _⟩ => ⟨S32x512, .f32⟩
  | .hbm, ⟨40, _⟩ => ⟨S_, .f32⟩
  | .hbm, ⟨41, _⟩ => ⟨S32x512, .f32⟩
  | .hbm, ⟨42, _⟩ => ⟨S32x512, .f32⟩
  | .hbm, ⟨43, _⟩ => ⟨S512x28, .f32⟩
  | .hbm, ⟨44, _⟩ => ⟨S32x28, .f32⟩
  | .hbm, ⟨45, _⟩ => ⟨S1x28, .f32⟩
  | .hbm, ⟨46, _⟩ => ⟨S32x28, .f32⟩
  | .hbm, ⟨47, _⟩ => ⟨S32x28, .f32⟩
  | .hbm, ⟨48, _⟩ => ⟨S_, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S32x1, .f32⟩
  | .hbm, ⟨54, _⟩ => ⟨S32x28, .f32⟩
  | .hbm, ⟨55, _⟩ => ⟨S32x28, .f32⟩
  | .hbm, ⟨56, _⟩ => ⟨S32x28, .f32⟩
  | .hbm, ⟨57, _⟩ => ⟨S_, .f32⟩
  | .hbm, ⟨58, _⟩ => ⟨S32, .f32⟩
  | .hbm, ⟨59, _⟩ => ⟨S32x1, .f32⟩
  | .hbm, ⟨60, _⟩ => ⟨S32x1, .f32⟩
  | .hbm, ⟨61, _⟩ => ⟨S32x28, .f32⟩
  | .hbm, ⟨62, _⟩ => ⟨S32x28, .f32⟩
  | .local _ .vmem, ⟨0, _⟩ => ⟨S1x64x26, .bf16⟩
  | .local _ .vmem, ⟨1, _⟩ => ⟨S1x64x26, .bf16⟩
  | .local _ .vmem, ⟨2, _⟩ => ⟨S512x26, .bf16⟩
  | .local _ .vmem, ⟨3, _⟩ => ⟨S512x26, .bf16⟩
  | .local _ .vmem, ⟨4, _⟩ => ⟨S512, .f32⟩
  | .local _ .vmem, ⟨5, _⟩ => ⟨S512x512, .bf16⟩
  | .local _ .vmem, ⟨6, _⟩ => ⟨S512, .f32⟩
  | .local _ .vmem, ⟨7, _⟩ => ⟨S512x512, .bf16⟩
  | .local _ .vmem, ⟨8, _⟩ => ⟨S512, .f32⟩
  | .local _ .vmem, ⟨9, _⟩ => ⟨S512x512, .bf16⟩
  | .local _ .vmem, ⟨10, _⟩ => ⟨S512, .f32⟩
  | .local _ .vmem, ⟨11, _⟩ => ⟨S1x1x512, .f32⟩
  | .local _ .vmem, ⟨12, _⟩ => ⟨S1x1x512, .f32⟩
  | _, _ => ⟨S32x64x26, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call0_cst : Ref sig .tc := ⟨.hbm, 32, rfl⟩
abbrev main_call0_v0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_call1_cst : Ref sig .tc := ⟨.hbm, 40, rfl⟩
abbrev main_call1_v0 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call2_cst : Ref sig .tc := ⟨.hbm, 48, rfl⟩
abbrev main_call2_v0 : Ref sig .tc := ⟨.hbm, 49, rfl⟩
abbrev main_call2_cst_0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_v6 : Ref sig .tc := ⟨.hbm, 56, rfl⟩
abbrev main_call2_cst_1 : Ref sig .tc := ⟨.hbm, 57, rfl⟩
abbrev main_call2_v7 : Ref sig .tc := ⟨.hbm, 58, rfl⟩
abbrev main_call2_v8 : Ref sig .tc := ⟨.hbm, 59, rfl⟩
abbrev main_call2_v9 : Ref sig .tc := ⟨.hbm, 60, rfl⟩
abbrev main_call2_v10 : Ref sig .tc := ⟨.hbm, 61, rfl⟩
abbrev main_v28 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x26 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x26 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x26 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bitsLt_bf16_f32 : FTy.bits .bf16 < FTy.bits .f32
  slices_S512x52_S512x26_0_0 : S512x52.Slices ![0, 0] S512x26
  slices_S512x52_S512x26_0_26 : S512x52.Slices ![0, 26] S512x26
  inb_S1x64x26_S1x64x26_0_0_0 : ∀ a, (![0, 0, 0] : Fin 3 → Nat) a + S1x64x26.size a ≤ S1x64x26.size a
  h_S1x64x26 : 0 < S1x64x26.numel
  shapeCasts_S1x64x26_S64x26 : S1x64x26.ShapeCasts S64x26
  inb_S512x26_S512x26_0_0 : ∀ a, (![0, 0] : Fin 2 → Nat) a + S512x26.size a ≤ S512x26.size a
  h_S512x26 : 0 < S512x26.numel
  shapeCasts_S512x26_S512x26 : S512x26.ShapeCasts S512x26
  inb_S512_S512_0 : ∀ a, (![0] : Fin 1 → Nat) a + S512.size a ≤ S512.size a
  h_S512 : 0 < S512.numel
  shapeCasts_S512_S1x512 : S512.ShapeCasts S1x512
  broadcasts_S1x512_S64x512 : S1x512.Broadcasts S64x512
  shapeCasts_S64x512_S64x1x512 : S64x512.ShapeCasts S64x1x512
  shapeCasts_S64x512_S1x64x512 : S64x512.ShapeCasts S1x64x512
  broadcasts_S64x1x512_S64x64x512 : S64x1x512.Broadcasts S64x64x512
  broadcasts_S1x64x512_S64x64x512 : S1x64x512.Broadcasts S64x64x512
  shapeCasts_S64x64x512_S4096x512 : S64x64x512.ShapeCasts S4096x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  broadcasts_S1x512_S4096x512 : S1x512.Broadcasts S4096x512
  reduces_S4096x512_S512 : S4096x512.Reduces [0] S512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  shapeCasts_S32x1x512_S32x512 : S32x1x512.ShapeCasts S32x512
  concatenates_S32x512_S32x256_S32x768_d1 : Shape.Concatenates [S32x512, S32x256] S32x768 1
  transposes_S512x768_S768x512_1_0 : S512x768.Transposes [1, 0] S768x512
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  bcast_S_S32x512 : S_.BroadcastsInDim S32x512 (![] : Fin 0 → Fin S32x512.rank)
  transposes_S512x512_S512x512_1_0 : S512x512.Transposes [1, 0] S512x512
  transposes_S28x512_S512x28_1_0 : S28x512.Transposes [1, 0] S512x28
  bcast_S28_S1x28_1 : S28.BroadcastsInDim S1x28 (![1] : Fin 1 → Fin S1x28.rank)
  bcast_S1x28_S32x28_0_1 : S1x28.BroadcastsInDim S32x28 (![0, 1] : Fin 2 → Fin S32x28.rank)
  reducesTo_S32x28_S32_d1 : S32x28.ReducesTo [1] S32
  h_S_ : 0 < S_.numel
  bcast_S_S32 : S_.BroadcastsInDim S32 (![] : Fin 0 → Fin S32.rank)
  bcast_S32_S32x1_0 : S32.BroadcastsInDim S32x1 (![0] : Fin 1 → Fin S32x1.rank)
  bcast_S32x1_S32x28_0_1 : S32x1.BroadcastsInDim S32x28 (![0, 1] : Fin 2 → Fin S32x28.rank)
  dot_S64x26_S512x26_S64x512_1_1_0_0_n_n_wf : DotDims.WF S64x26 S512x26 S64x512 [1] [1] [0] [0] [] []
  dot_S4096x512_S512x512_S4096x512_1_1_0_0_n_n_wf : DotDims.WF S4096x512 S512x512 S4096x512 [1] [1] [0] [0] [] []
  dot_S32x768_S768x512_S32x512_1_0_0_1_n_n_wf : DotDims.WF S32x768 S768x512 S32x512 [1] [0] [0] [1] [] []
  dot_S32x512_S512x512_S32x512_1_0_0_1_n_n_wf : DotDims.WF S32x512 S512x512 S32x512 [1] [0] [0] [1] [] []
  dot_S32x512_S512x28_S32x28_1_0_0_1_n_n_wf : DotDims.WF S32x512 S512x28 S32x28 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x26.size a ≤ S32x64x26.size a
  hwx0_0 : ∀ i : grid0.Coords, EltTy.bits .bf16 = 32 ∨ (Rect.block (s := S32x64x26) S1x64x26.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x26.size a ≤ S512x26.size a
  hwx0_1 : ∀ i : grid0.Coords, EltTy.bits .bf16 = 32 ∨ (Rect.block (s := S512x26) S512x26.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x26.size a ≤ S512x26.size a
  hwx0_2 : ∀ i : grid0.Coords, EltTy.bits .bf16 = 32 ∨ (Rect.block (s := S512x26) S512x26.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .bf16 = 32 ∨ (Rect.block (s := S512x512) S512x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x512.size a ≤ S32x1x512.size a
  hwx0_10 : ∀ i : grid0.Coords, EltTy.bits .f32 = 32 ∨ (Rect.block (s := S32x1x512) S1x1x512.size (cc0_transform_10 i) (hinb0_10 i)).WholeWords (EltTy.packing .f32)

variable [Facts₀]

def dot_S64x26_S512x26_S64x512_1_1_0_0_n_n : DotDims S64x26 S512x26 S64x512 where
  lhsContracting := [1]
  rhsContracting := [1]
  lhsNonContracting := [0]
  rhsNonContracting := [0]
  lhsBatch := []
  rhsBatch := []
  wf := dot_S64x26_S512x26_S64x512_1_1_0_0_n_n_wf
def dot_S4096x512_S512x512_S4096x512_1_1_0_0_n_n : DotDims S4096x512 S512x512 S4096x512 where
  lhsContracting := [1]
  rhsContracting := [1]
  lhsNonContracting := [0]
  rhsNonContracting := [0]
  lhsBatch := []
  rhsBatch := []
  wf := dot_S4096x512_S512x512_S4096x512_1_1_0_0_n_n_wf
def dot_S32x768_S768x512_S32x512_1_0_0_1_n_n : DotDims S32x768 S768x512 S32x512 where
  lhsContracting := [1]
  rhsContracting := [0]
  lhsNonContracting := [0]
  rhsNonContracting := [1]
  lhsBatch := []
  rhsBatch := []
  wf := dot_S32x768_S768x512_S32x512_1_0_0_1_n_n_wf
def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf
def dot_S32x512_S512x28_S32x28_1_0_0_1_n_n : DotDims S32x512 S512x28 S32x28 where
  lhsContracting := [1]
  rhsContracting := [0]
  lhsNonContracting := [0]
  rhsNonContracting := [1]
  lhsBatch := []
  rhsBatch := []
  wf := dot_S32x512_S512x28_S32x28_1_0_0_1_n_n_wf

abbrev win0_0 : Pipeline.Window sig grid0 :=
  Pipeline.Window.ofSpec (Memref.whole main_v0) S1x64x26.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x26.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x26.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S1x1x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S32x64x26 : Shape := ⟨3, ![32, 64, 26]⟩
abbrev S32x256 : Shape := ⟨2, ![32, 256]⟩
abbrev S512x52 : Shape := ⟨2, ![512, 52]⟩
abbrev S512 : Shape := ⟨1, ![512]⟩
abbrev S512x512 : Shape := ⟨2, ![512, 512]⟩
abbrev S512x768 : Shape := ⟨2, ![512, 768]⟩
abbrev S28x512 : Shape := ⟨2, ![28, 512]⟩
abbrev S28 : Shape := ⟨1, ![28]⟩
abbrev S32x1x64x26 : Shape := ⟨4, ![32, 1, 64, 26]⟩
abbrev S32x64x64x26 : Shape := ⟨4, ![32, 64, 64, 26]⟩
abbrev S32x64x1x26 : Shape := ⟨4, ![32, 64, 1, 26]⟩
abbrev S32x64x64x52 : Shape := ⟨4, ![32, 64, 64, 52]⟩
abbrev S131072x52 : Shape := ⟨2, ![131072, 52]⟩
abbrev S52x512 : Shape := ⟨2, ![52, 512]⟩
abbrev S131072x512 : Shape := ⟨2, ![131072, 512]⟩
abbrev S1x512 : Shape := ⟨2, ![1, 512]⟩
abbrev S_ : Shape := ⟨0, ![]⟩
abbrev S32x4096x512 : Shape := ⟨3, ![32, 4096, 512]⟩
abbrev S32x512 : Shape := ⟨2, ![32, 512]⟩
abbrev S32x768 : Shape := ⟨2, ![32, 768]⟩
abbrev S768x512 : Shape := ⟨2, ![768, 512]⟩
abbrev S512x28 : Shape := ⟨2, ![512, 28]⟩
abbrev S32x28 : Shape := ⟨2, ![32, 28]⟩
abbrev S1x28 : Shape := ⟨2, ![1, 28]⟩
abbrev S32 : Shape := ⟨1, ![32]⟩
abbrev S32x1 : Shape := ⟨2, ![32, 1]⟩

abbrev nBuf : Space → Nat
  | .hbm => 94
  | .vmem => 0
  | .smem => 0
  | _ => 0

abbrev bufTy : (tb : Table) → Fin (tcTables nBuf tb) → BufTy
  | .hbm, ⟨0, _⟩ => ⟨S32x64x26, .f32⟩
  | .hbm, ⟨1, _⟩ => ⟨S32x256, .f32⟩
  | .hbm, ⟨2, _⟩ => ⟨S512x52, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x768, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S28x512, .f32⟩
  | .hbm, ⟨15, _⟩ => ⟨S28, .f32⟩
  | .hbm, ⟨16, _⟩ => ⟨S32x1x64x26, .f32⟩
  | .hbm, ⟨17, _⟩ => ⟨S32x64x64x26, .f32⟩
  | .hbm, ⟨18, _⟩ => ⟨S32x64x1x26, .f32⟩
  | .hbm, ⟨19, _⟩ => ⟨S32x64x64x26, .f32⟩
  | .hbm, ⟨20, _⟩ => ⟨S32x64x64x52, .f32⟩
  | .hbm, ⟨21, _⟩ => ⟨S131072x52, .f32⟩
  | .hbm, ⟨22, _⟩ => ⟨S52x512, .f32⟩
  | .hbm, ⟨23, _⟩ => ⟨S131072x512, .f32⟩
  | .hbm, ⟨24, _⟩ => ⟨S1x512, .f32⟩
  | .hbm, ⟨25, _⟩ => ⟨S131072x512, .f32⟩
  | .hbm, ⟨26, _⟩ => ⟨S131072x512, .f32⟩
  | .hbm, ⟨27, _⟩ => ⟨S_, .f32⟩
  | .hbm, ⟨28, _⟩ => ⟨S131072x512, .f32⟩
  | .hbm, ⟨29, _⟩ => ⟨S131072x512, .f32⟩
  | .hbm, ⟨30, _⟩ => ⟨S512x512, .f32⟩
  | .hbm, ⟨31, _⟩ => ⟨S131072x512, .f32⟩
  | .hbm, ⟨32, _⟩ => ⟨S1x512, .f32⟩
  | .hbm, ⟨33, _⟩ => ⟨S131072x512, .f32⟩
  | .hbm, ⟨34, _⟩ => ⟨S131072x512, .f32⟩
  | .hbm, ⟨35, _⟩ => ⟨S_, .f32⟩
  | .hbm, ⟨36, _⟩ => ⟨S131072x512, .f32⟩
  | .hbm, ⟨37, _⟩ => ⟨S131072x512, .f32⟩
  | .hbm, ⟨38, _⟩ => ⟨S512x512, .f32⟩
  | .hbm, ⟨39, _⟩ => ⟨S131072x512, .f32⟩
  | .hbm, ⟨40, _⟩ => ⟨S1x512, .f32⟩
  | .hbm, ⟨41, _⟩ => ⟨S131072x512, .f32⟩
  | .hbm, ⟨42, _⟩ => ⟨S131072x512, .f32⟩
  | .hbm, ⟨43, _⟩ => ⟨S_, .f32⟩
  | .hbm, ⟨44, _⟩ => ⟨S131072x512, .f32⟩
  | .hbm, ⟨45, _⟩ => ⟨S131072x512, .f32⟩
  | .hbm, ⟨46, _⟩ => ⟨S512x512, .f32⟩
  | .hbm, ⟨47, _⟩ => ⟨S131072x512, .f32⟩
  | .hbm, ⟨48, _⟩ => ⟨S1x512, .f32⟩
  | .hbm, ⟨49, _⟩ => ⟨S131072x512, .f32⟩
  | .hbm, ⟨50, _⟩ => ⟨S131072x512, .f32⟩
  | .hbm, ⟨51, _⟩ => ⟨S_, .f32⟩
  | .hbm, ⟨52, _⟩ => ⟨S131072x512, .f32⟩
  | .hbm, ⟨53, _⟩ => ⟨S131072x512, .f32⟩
  | .hbm, ⟨54, _⟩ => ⟨S32x4096x512, .f32⟩
  | .hbm, ⟨55, _⟩ => ⟨S_, .f32⟩
  | .hbm, ⟨56, _⟩ => ⟨S32x512, .f32⟩
  | .hbm, ⟨57, _⟩ => ⟨S32x768, .f32⟩
  | .hbm, ⟨58, _⟩ => ⟨S768x512, .f32⟩
  | .hbm, ⟨59, _⟩ => ⟨S32x512, .f32⟩
  | .hbm, ⟨60, _⟩ => ⟨S1x512, .f32⟩
  | .hbm, ⟨61, _⟩ => ⟨S32x512, .f32⟩
  | .hbm, ⟨62, _⟩ => ⟨S32x512, .f32⟩
  | .hbm, ⟨63, _⟩ => ⟨S_, .f32⟩
  | .hbm, ⟨64, _⟩ => ⟨S32x512, .f32⟩
  | .hbm, ⟨65, _⟩ => ⟨S32x512, .f32⟩
  | .hbm, ⟨66, _⟩ => ⟨S512x512, .f32⟩
  | .hbm, ⟨67, _⟩ => ⟨S32x512, .f32⟩
  | .hbm, ⟨68, _⟩ => ⟨S1x512, .f32⟩
  | .hbm, ⟨69, _⟩ => ⟨S32x512, .f32⟩
  | .hbm, ⟨70, _⟩ => ⟨S32x512, .f32⟩
  | .hbm, ⟨71, _⟩ => ⟨S_, .f32⟩
  | .hbm, ⟨72, _⟩ => ⟨S32x512, .f32⟩
  | .hbm, ⟨73, _⟩ => ⟨S32x512, .f32⟩
  | .hbm, ⟨74, _⟩ => ⟨S512x28, .f32⟩
  | .hbm, ⟨75, _⟩ => ⟨S32x28, .f32⟩
  | .hbm, ⟨76, _⟩ => ⟨S1x28, .f32⟩
  | .hbm, ⟨77, _⟩ => ⟨S32x28, .f32⟩
  | .hbm, ⟨78, _⟩ => ⟨S32x28, .f32⟩
  | .hbm, ⟨79, _⟩ => ⟨S_, .f32⟩
  | .hbm, ⟨80, _⟩ => ⟨S32, .f32⟩
  | .hbm, ⟨81, _⟩ => ⟨S_, .f32⟩
  | .hbm, ⟨82, _⟩ => ⟨S32, .f32⟩
  | .hbm, ⟨83, _⟩ => ⟨S32, .f32⟩
  | .hbm, ⟨84, _⟩ => ⟨S32x1, .f32⟩
  | .hbm, ⟨85, _⟩ => ⟨S32x28, .f32⟩
  | .hbm, ⟨86, _⟩ => ⟨S32x28, .f32⟩
  | .hbm, ⟨87, _⟩ => ⟨S32x28, .f32⟩
  | .hbm, ⟨88, _⟩ => ⟨S_, .f32⟩
  | .hbm, ⟨89, _⟩ => ⟨S32, .f32⟩
  | .hbm, ⟨90, _⟩ => ⟨S32x1, .f32⟩
  | .hbm, ⟨91, _⟩ => ⟨S32x1, .f32⟩
  | .hbm, ⟨92, _⟩ => ⟨S32x28, .f32⟩
  | .hbm, ⟨93, _⟩ => ⟨S32x28, .f32⟩
  | _, _ => ⟨S32x64x26, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call0_cst : Ref sig .tc := ⟨.hbm, 27, rfl⟩
abbrev main_call0_v0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_call1_cst : Ref sig .tc := ⟨.hbm, 35, rfl⟩
abbrev main_call1_v0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call2_cst : Ref sig .tc := ⟨.hbm, 43, rfl⟩
abbrev main_call2_v0 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_call3_cst : Ref sig .tc := ⟨.hbm, 51, rfl⟩
abbrev main_call3_v0 : Ref sig .tc := ⟨.hbm, 52, rfl⟩
abbrev main_v29 : Ref sig .tc := ⟨.hbm, 53, rfl⟩
abbrev main_v30 : Ref sig .tc := ⟨.hbm, 54, rfl⟩
abbrev main_cst : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_call4_cst : Ref sig .tc := ⟨.hbm, 63, rfl⟩
abbrev main_call4_v0 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_call5_cst : Ref sig .tc := ⟨.hbm, 71, rfl⟩
abbrev main_call5_v0 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_call6_cst : Ref sig .tc := ⟨.hbm, 79, rfl⟩
abbrev main_call6_v0 : Ref sig .tc := ⟨.hbm, 80, rfl⟩
abbrev main_call6_cst_0 : Ref sig .tc := ⟨.hbm, 81, rfl⟩
abbrev main_call6_v1 : Ref sig .tc := ⟨.hbm, 82, rfl⟩
abbrev main_call6_v2 : Ref sig .tc := ⟨.hbm, 83, rfl⟩
abbrev main_call6_v3 : Ref sig .tc := ⟨.hbm, 84, rfl⟩
abbrev main_call6_v4 : Ref sig .tc := ⟨.hbm, 85, rfl⟩
abbrev main_call6_v5 : Ref sig .tc := ⟨.hbm, 86, rfl⟩
abbrev main_call6_v6 : Ref sig .tc := ⟨.hbm, 87, rfl⟩
abbrev main_call6_cst_1 : Ref sig .tc := ⟨.hbm, 88, rfl⟩
abbrev main_call6_v7 : Ref sig .tc := ⟨.hbm, 89, rfl⟩
abbrev main_call6_v8 : Ref sig .tc := ⟨.hbm, 90, rfl⟩
abbrev main_call6_v9 : Ref sig .tc := ⟨.hbm, 91, rfl⟩
abbrev main_call6_v10 : Ref sig .tc := ⟨.hbm, 92, rfl⟩
abbrev main_v50 : Ref sig .tc := ⟨.hbm, 93, rfl⟩

abbrev nD : Nat := 1
abbrev τ : Topo := Topo.v7x

variable {F : FTy → Type} [FloatOps F]

class Facts₀ : Prop where
  bcast_S32x64x26_S32x1x64x26_0_2_3 : S32x64x26.BroadcastsInDim S32x1x64x26 (![0, 2, 3] : Fin 3 → Fin S32x1x64x26.rank)
  bcast_S32x1x64x26_S32x64x64x26_0_1_2_3 : S32x1x64x26.BroadcastsInDim S32x64x64x26 (![0, 1, 2, 3] : Fin 4 → Fin S32x64x64x26.rank)
  bcast_S32x64x26_S32x64x1x26_0_1_3 : S32x64x26.BroadcastsInDim S32x64x1x26 (![0, 1, 3] : Fin 3 → Fin S32x64x1x26.rank)
  bcast_S32x64x1x26_S32x64x64x26_0_1_2_3 : S32x64x1x26.BroadcastsInDim S32x64x64x26 (![0, 1, 2, 3] : Fin 4 → Fin S32x64x64x26.rank)
  concatenates_S32x64x64x26_S32x64x64x26_S32x64x64x52_d3 : Shape.Concatenates [S32x64x64x26, S32x64x64x26] S32x64x64x52 3
  shapeCasts_S32x64x64x52_S131072x52 : S32x64x64x52.ShapeCasts S131072x52
  transposes_S512x52_S52x512_1_0 : S512x52.Transposes [1, 0] S52x512
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  bcast_S_S131072x512 : S_.BroadcastsInDim S131072x512 (![] : Fin 0 → Fin S131072x512.rank)
  transposes_S512x512_S512x512_1_0 : S512x512.Transposes [1, 0] S512x512
  shapeCasts_S131072x512_S32x4096x512 : S131072x512.ShapeCasts S32x4096x512
  reducesTo_S32x4096x512_S32x512_d1 : S32x4096x512.ReducesTo [1] S32x512
  h_S_ : 0 < S_.numel
  concatenates_S32x512_S32x256_S32x768_d1 : Shape.Concatenates [S32x512, S32x256] S32x768 1
  transposes_S512x768_S768x512_1_0 : S512x768.Transposes [1, 0] S768x512
  bcast_S1x512_S32x512_0_1 : S1x512.BroadcastsInDim S32x512 (![0, 1] : Fin 2 → Fin S32x512.rank)
  bcast_S_S32x512 : S_.BroadcastsInDim S32x512 (![] : Fin 0 → Fin S32x512.rank)
  transposes_S28x512_S512x28_1_0 : S28x512.Transposes [1, 0] S512x28
  bcast_S28_S1x28_1 : S28.BroadcastsInDim S1x28 (![1] : Fin 1 → Fin S1x28.rank)
  bcast_S1x28_S32x28_0_1 : S1x28.BroadcastsInDim S32x28 (![0, 1] : Fin 2 → Fin S32x28.rank)
  reducesTo_S32x28_S32_d1 : S32x28.ReducesTo [1] S32
  bcast_S_S32 : S_.BroadcastsInDim S32 (![] : Fin 0 → Fin S32.rank)
  bcast_S32_S32x1_0 : S32.BroadcastsInDim S32x1 (![0] : Fin 1 → Fin S32x1.rank)
  bcast_S32x1_S32x28_0_1 : S32x1.BroadcastsInDim S32x28 (![0, 1] : Fin 2 → Fin S32x28.rank)
  dot_S131072x52_S52x512_S131072x512_1_0_0_1_n_n_wf : DotDims.WF S131072x52 S52x512 S131072x512 [1] [0] [0] [1] [] []
  dot_S131072x512_S512x512_S131072x512_1_0_0_1_n_n_wf : DotDims.WF S131072x512 S512x512 S131072x512 [1] [0] [0] [1] [] []
  dot_S32x768_S768x512_S32x512_1_0_0_1_n_n_wf : DotDims.WF S32x768 S768x512 S32x512 [1] [0] [0] [1] [] []
  dot_S32x512_S512x512_S32x512_1_0_0_1_n_n_wf : DotDims.WF S32x512 S512x512 S32x512 [1] [0] [0] [1] [] []
  dot_S32x512_S512x28_S32x28_1_0_0_1_n_n_wf : DotDims.WF S32x512 S512x28 S32x28 [1] [0] [0] [1] [] []

variable [Facts₀]

def dot_S131072x52_S52x512_S131072x512_1_0_0_1_n_n : DotDims S131072x52 S52x512 S131072x512 where
  lhsContracting := [1]
  rhsContracting := [0]
  lhsNonContracting := [0]
  rhsNonContracting := [1]
  lhsBatch := []
  rhsBatch := []
  wf := dot_S131072x52_S52x512_S131072x512_1_0_0_1_n_n_wf
def dot_S131072x512_S512x512_S131072x512_1_0_0_1_n_n : DotDims S131072x512 S512x512 S131072x512 where
  lhsContracting := [1]
  rhsContracting := [0]
  lhsNonContracting := [0]
  rhsNonContracting := [1]
  lhsBatch := []
  rhsBatch := []
  wf := dot_S131072x512_S512x512_S131072x512_1_0_0_1_n_n_wf
def dot_S32x768_S768x512_S32x512_1_0_0_1_n_n : DotDims S32x768 S768x512 S32x512 where
  lhsContracting := [1]
  rhsContracting := [0]
  lhsNonContracting := [0]
  rhsNonContracting := [1]
  lhsBatch := []
  rhsBatch := []
  wf := dot_S32x768_S768x512_S32x512_1_0_0_1_n_n_wf
def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf
def dot_S32x512_S512x28_S32x28_1_0_0_1_n_n : DotDims S32x512 S512x28 S32x28 where
  lhsContracting := [1]
  rhsContracting := [0]
  lhsNonContracting := [0]
  rhsNonContracting := [1]
  lhsBatch := []
  rhsBatch := []
  wf := dot_S32x512_S512x28_S32x28_1_0_0_1_n_n_wf

class Facts : Prop extends Facts₀ where

variable [Facts]
-- ==== Proof.Spec.lean ====
/-
  The function both programs compute, stated once over plain finite index types.

  A batch element holds 64 objects of 26 features, `X p k`. For every ordered pair `(p, q)` of objects the first
  layer applies `W0` to the 52 features `[X q, X p]` and adds `b0`; three more dense layers of width 512 follow, each
  `h ↦ max (W h + b) 0`; the 4096 pair rows are then summed feature by feature.

  The reference contracts all 52 features at once (`pairR`). The kernel contracts the two halves separately, the
  first 26 columns of `W0` against `X q` and the last 26 against `X p`, and adds the bias to the second product before
  joining the two (`pairK`). On the extended reals the two agree because a sum over `Fin (26 + 26)` splits into its two
  halves and `+` is commutative and associative; nothing else is used, in particular no finiteness.
-/
import Idealize.ShloMosaic.PureOps.Ideal
import Mathlib.Algebra.BigOperators.Fin

noncomputable section

namespace Cert.Relational

open Idealize.ShloMosaic

/-- The zero both programs clamp at and start their sums from: the all-zero f32 word. -/
abbrev z : EReal := Ideal.ofBits .f32 0x00000000#32

/-- One dense layer on one row: `max (∑ k, h k · W o k + b o) 0`. -/
def denseRow (W : Fin 512 → Fin 512 → EReal) (b : Fin 512 → EReal) (h : Fin 512 → EReal) (o : Fin 512) : EReal :=
  max ((∑ k : Fin 512, h k * W o k) + b o) z

/-- The first layer as the kernel computes it for the pair `(p, q)`: the last 26 columns against object `p` plus the
    bias, then the first 26 columns against object `q`. -/
def pairK (X : Fin 64 → Fin 26 → EReal) (Wa Wb : Fin 512 → Fin 26 → EReal) (b0 : Fin 512 → EReal)
    (p q : Fin 64) (o : Fin 512) : EReal :=
  max (((∑ k : Fin 26, X p k * Wb o k) + b0 o) + (∑ k : Fin 26, X q k * Wa o k)) z

/-- The 52 features of the pair `(p, q)`: object `q`'s, then object `p`'s. -/
def cat (X : Fin 64 → Fin 26 → EReal) (p q : Fin 64) (j : Fin 52) : EReal :=
  if h : j.val < 26 then X q ⟨j.val, h⟩ else X p ⟨j.val - 26, by have := j.isLt; omega⟩

/-- The first layer as the reference computes it: one contraction over the 52 joined features, then the bias. -/
def pairR (X : Fin 64 → Fin 26 → EReal) (W0 : Fin 512 → Fin 52 → EReal) (b0 : Fin 512 → EReal)
    (p q : Fin 64) (o : Fin 512) : EReal :=
  max ((∑ j : Fin 52, cat X p q j * W0 o j) + b0 o) z

/-- Row `r` of the 4096 pair rows is the pair `(r / 64, r % 64)`. -/
abbrev rowP (r : Fin 4096) : Fin 64 := ⟨r.val / 64, by have := r.isLt; omega⟩
abbrev rowQ (r : Fin 4096) : Fin 64 := ⟨r.val % 64, by omega⟩

/-- Layers 1–3 on one row. -/
def tower (W1 : Fin 512 → Fin 512 → EReal) (b1 : Fin 512 → EReal) (W2 : Fin 512 → Fin 512 → EReal) (b2 : Fin 512 → EReal)
    (W3 : Fin 512 → Fin 512 → EReal) (b3 : Fin 512 → EReal) (h : Fin 512 → EReal) : Fin 512 → EReal :=
  denseRow W3 b3 (denseRow W2 b2 (denseRow W1 b1 h))

/-- The aggregated features of one batch element, the kernel's way. -/
def hsumK (X : Fin 64 → Fin 26 → EReal) (Wa Wb : Fin 512 → Fin 26 → EReal) (b0 : Fin 512 → EReal)
    (W1 : Fin 512 → Fin 512 → EReal) (b1 : Fin 512 → EReal) (W2 : Fin 512 → Fin 512 → EReal) (b2 : Fin 512 → EReal)
    (W3 : Fin 512 → Fin 512 → EReal) (b3 : Fin 512 → EReal) (o : Fin 512) : EReal :=
  ∑ r : Fin 4096, tower W1 b1 W2 b2 W3 b3 (pairK X Wa Wb b0 (rowP r) (rowQ r)) o

/-- The aggregated features of one batch element, the reference's way. -/
def hsumR (X : Fin 64 → Fin 26 → EReal) (W0 : Fin 512 → Fin 52 → EReal) (b0 : Fin 512 → EReal)
    (W1 : Fin 512 → Fin 512 → EReal) (b1 : Fin 512 → EReal) (W2 : Fin 512 → Fin 512 → EReal) (b2 : Fin 512 → EReal)
    (W3 : Fin 512 → Fin 512 → EReal) (b3 : Fin 512 → EReal) (o : Fin 512) : EReal :=
  ∑ r : Fin 4096, tower W1 b1 W2 b2 W3 b3 (pairR X W0 b0 (rowP r) (rowQ r)) o

/-- The first 26 columns of `W0`. -/
abbrev colsLo (W0 : Fin 512 → Fin 52 → EReal) (o : Fin 512) (k : Fin 26) : EReal := W0 o ⟨k.val, by have := k.isLt; omega⟩
/-- The last 26 columns of `W0`. -/
abbrev colsHi (W0 : Fin 512 → Fin 52 → EReal) (o : Fin 512) (k : Fin 26) : EReal := W0 o ⟨26 + k.val, by have := k.isLt; omega⟩

/-- The contraction over the 52 joined features is the sum of the two contractions over 26. -/
theorem sum_cat (X : Fin 64 → Fin 26 → EReal) (W0 : Fin 512 → Fin 52 → EReal) (p q : Fin 64) (o : Fin 512) :
    (∑ j : Fin 52, cat X p q j * W0 o j)
      = (∑ k : Fin 26, X q k * colsLo W0 o k) + (∑ k : Fin 26, X p k * colsHi W0 o k) := by
  rw [show (∑ j : Fin 52, cat X p q j * W0 o j) = ∑ j : Fin (26 + 26), cat X p q j * W0 o j from rfl, Fin.sum_univ_add]
  refine congrArg₂ (· + ·) (Finset.sum_congr rfl fun k _ => ?_) (Finset.sum_congr rfl fun k _ => ?_)
  · have hk : (Fin.castAdd 26 k).val < 26 := k.isLt
    simp only [cat, dif_pos hk]; rfl
  · have hk : ¬ (Fin.natAdd 26 k).val < 26 := by simp [Fin.natAdd]
    simp only [cat, dif_neg hk]
    refine congrArg₂ (· * ·) (congrArg (X p) (Fin.ext ?_)) rfl
    simp [Fin.natAdd]

/-- The two first layers agree. -/
theorem pairR_eq_pairK (X : Fin 64 → Fin 26 → EReal) (W0 : Fin 512 → Fin 52 → EReal) (b0 : Fin 512 → EReal)
    (p q : Fin 64) (o : Fin 512) :
    pairR X W0 b0 p q o = pairK X (colsLo W0) (colsHi W0) b0 p q o := by
  unfold pairR pairK
  rw [sum_cat]
  congr 1
  rw [add_comm (∑ k : Fin 26, X q k * colsLo W0 o k), add_right_comm]

/-- The two aggregates agree. -/
theorem hsumR_eq_hsumK (X : Fin 64 → Fin 26 → EReal) (W0 : Fin 512 → Fin 52 → EReal) (b0 : Fin 512 → EReal)
    (W1 : Fin 512 → Fin 512 → EReal) (b1 : Fin 512 → EReal) (W2 : Fin 512 → Fin 512 → EReal) (b2 : Fin 512 → EReal)
    (W3 : Fin 512 → Fin 512 → EReal) (b3 : Fin 512 → EReal) (o : Fin 512) :
    hsumR X W0 b0 W1 b1 W2 b2 W3 b3 o = hsumK X (colsLo W0) (colsHi W0) b0 W1 b1 W2 b2 W3 b3 o := by
  unfold hsumR hsumK
  refine Finset.sum_congr rfl fun r _ => ?_
  exact congrArg (fun h => tower W1 b1 W2 b2 W3 b3 h o) (funext fun o' => pairR_eq_pairK X W0 b0 _ _ o')

end Cert.Relational

end
-- ==== Proof.BodyAgg.lean ====
/-
  The kernel body's value, read at one feature of its output block.

  The body takes a batch element's 64 objects `X`, forms for every ordered pair `(p, q)` the first layer
  `max ((X p · Wb o + b0 o) + X q · Wa o) 0` as a `[64, 64, 512]` array — the product with `Wb` plus the bias repeated
  along the second axis, the product with `Wa` repeated along the first —, flattens it to 4096 rows (row `r` is the pair
  `(r / 64, r % 64)`), applies three dense layers `h ↦ max (h · W o + b o) 0` to every row, and sums the rows feature by
  feature. Read at feature `o` this is `Cert.Relational.hsumK` of the input blocks: each operation is read at an index
  (a product as the sum over its contracted axis, a layout operation as its operand at the matching index, the sum over
  axis 0 as the sum over the rows), outermost first.
-/
import proofs.«121392_j6966436954182_2_alg».proof.Proof.Gen.KernelIdeal.Frame
import proofs.«121392_j6966436954182_2_alg».proof.Proof.Spec
import Idealize.ShloMosaic.Lib.ValueLayout
import Idealize.ShloMosaic.PureOps.Ideal.Laws

noncomputable section

namespace Cert.BodyAgg

open Idealize.ShloMosaic Idealize.ShloMosaic.ValueIdx
open Cert.KernelIdeal Cert.KernelIdeal.Gen Cert.Relational

/-! ## The two products at an index

Both contract axis 1 of the left operand with axis 1 of the right one: entry `(r, o)` is row `r` of the left
operand against row `o` of the right one. -/

theorem wide_lhs_0 (i : S4096x512.Idx) (q : dot_S4096x512_S512x512_S4096x512_1_1_0_0_n_n.contr.Idx) :
    (dot_S4096x512_S512x512_S4096x512_1_1_0_0_n_n.lhsIdx i q 0).val = (i 0).val := by
  unfold DotDims.lhsIdx
  rw [dif_neg (show ¬(0 : Fin S4096x512.rank) ∈ dot_S4096x512_S512x512_S4096x512_1_1_0_0_n_n.lhsBatch by decide), dif_pos (show (0 : Fin S4096x512.rank) ∈ dot_S4096x512_S512x512_S4096x512_1_1_0_0_n_n.lhsNonContracting by decide)]
  rfl
theorem wide_lhs_1 (i : S4096x512.Idx) (q : dot_S4096x512_S512x512_S4096x512_1_1_0_0_n_n.contr.Idx) :
    (dot_S4096x512_S512x512_S4096x512_1_1_0_0_n_n.lhsIdx i q 1).val = (q ⟨0, by decide⟩).val :=
  dot_S4096x512_S512x512_S4096x512_1_1_0_0_n_n.lhsIdx_val_of_single rfl i q
theorem wide_rhs_0 (i : S4096x512.Idx) (q : dot_S4096x512_S512x512_S4096x512_1_1_0_0_n_n.contr.Idx) :
    (dot_S4096x512_S512x512_S4096x512_1_1_0_0_n_n.rhsIdx i q 0).val = (i 1).val := by
  unfold DotDims.rhsIdx
  rw [dif_neg (show ¬(0 : Fin S512x512.rank) ∈ dot_S4096x512_S512x512_S4096x512_1_1_0_0_n_n.rhsBatch by decide), dif_pos (show (0 : Fin S512x512.rank) ∈ dot_S4096x512_S512x512_S4096x512_1_1_0_0_n_n.rhsNonContracting by decide)]
  rfl
theorem wide_rhs_1 (i : S4096x512.Idx) (q : dot_S4096x512_S512x512_S4096x512_1_1_0_0_n_n.contr.Idx) :
    (dot_S4096x512_S512x512_S4096x512_1_1_0_0_n_n.rhsIdx i q 1).val = (q ⟨0, by decide⟩).val :=
  dot_S4096x512_S512x512_S4096x512_1_1_0_0_n_n.rhsIdx_val_of_single rfl i q

/-- The wide product into the zero accumulator, at `(r, o)`. -/
theorem matmul_wide_apply {φ₁ φ₂ : FTy} (l : FVec Ideal S4096x512 φ₁) (w : FVec Ideal S512x512 φ₂) (r : Fin 4096) (o : Fin 512) :
    matmul dot_S4096x512_S512x512_S4096x512_1_1_0_0_n_n none l w (constant S4096x512 .f32 0x00000000#32) (ix2 r o)
      = ∑ k : Fin 512, l (ix2 r k) * w (ix2 o k) := by
  refine (Ideal.matmul_constant_zero_apply dot_S4096x512_S512x512_S4096x512_1_1_0_0_n_n none l w (ix2 r o)).trans ?_
  rw [← Equiv.sum_comp (ValueIdx.contrEquiv1 dot_S4096x512_S512x512_S4096x512_1_1_0_0_n_n 512 rfl rfl).symm]
  refine Finset.sum_congr rfl fun k _ => ?_
  have hk := ValueIdx.contrEquiv1_symm_val dot_S4096x512_S512x512_S4096x512_1_1_0_0_n_n 512 rfl rfl k
  have el : dot_S4096x512_S512x512_S4096x512_1_1_0_0_n_n.lhsIdx (ix2 r o) ((ValueIdx.contrEquiv1 dot_S4096x512_S512x512_S4096x512_1_1_0_0_n_n 512 rfl rfl).symm k) = ix2 r k := funext fun a => Fin.ext (by
    match a with
    | ⟨0, _⟩ => exact wide_lhs_0 _ _
    | ⟨1, _⟩ => exact (wide_lhs_1 _ _).trans hk)
  have er : dot_S4096x512_S512x512_S4096x512_1_1_0_0_n_n.rhsIdx (ix2 r o) ((ValueIdx.contrEquiv1 dot_S4096x512_S512x512_S4096x512_1_1_0_0_n_n 512 rfl rfl).symm k) = ix2 o k := funext fun a => Fin.ext (by
    match a with
    | ⟨0, _⟩ => exact wide_rhs_0 _ _
    | ⟨1, _⟩ => exact (wide_rhs_1 _ _).trans hk)
  rw [el, er]

theorem narrow_lhs_0 (i : S64x512.Idx) (q : dot_S64x26_S512x26_S64x512_1_1_0_0_n_n.contr.Idx) :
    (dot_S64x26_S512x26_S64x512_1_1_0_0_n_n.lhsIdx i q 0).val = (i 0).val := by
  unfold DotDims.lhsIdx
  rw [dif_neg (show ¬(0 : Fin S64x26.rank) ∈ dot_S64x26_S512x26_S64x512_1_1_0_0_n_n.lhsBatch by decide), dif_pos (show (0 : Fin S64x26.rank) ∈ dot_S64x26_S512x26_S64x512_1_1_0_0_n_n.lhsNonContracting by decide)]
  rfl
theorem narrow_lhs_1 (i : S64x512.Idx) (q : dot_S64x26_S512x26_S64x512_1_1_0_0_n_n.contr.Idx) :
    (dot_S64x26_S512x26_S64x512_1_1_0_0_n_n.lhsIdx i q 1).val = (q ⟨0, by decide⟩).val :=
  dot_S64x26_S512x26_S64x512_1_1_0_0_n_n.lhsIdx_val_of_single rfl i q
theorem narrow_rhs_0 (i : S64x512.Idx) (q : dot_S64x26_S512x26_S64x512_1_1_0_0_n_n.contr.Idx) :
    (dot_S64x26_S512x26_S64x512_1_1_0_0_n_n.rhsIdx i q 0).val = (i 1).val := by
  unfold DotDims.rhsIdx
  rw [dif_neg (show ¬(0 : Fin S512x26.rank) ∈ dot_S64x26_S512x26_S64x512_1_1_0_0_n_n.rhsBatch by decide), dif_pos (show (0 : Fin S512x26.rank) ∈ dot_S64x26_S512x26_S64x512_1_1_0_0_n_n.rhsNonContracting by decide)]
  rfl
theorem narrow_rhs_1 (i : S64x512.Idx) (q : dot_S64x26_S512x26_S64x512_1_1_0_0_n_n.contr.Idx) :
    (dot_S64x26_S512x26_S64x512_1_1_0_0_n_n.rhsIdx i q 1).val = (q ⟨0, by decide⟩).val :=
  dot_S64x26_S512x26_S64x512_1_1_0_0_n_n.rhsIdx_val_of_single rfl i q

/-- The narrow product into the zero accumulator, at `(p, o)`. -/
theorem matmul_narrow_apply {φ₁ φ₂ : FTy} (l : FVec Ideal S64x26 φ₁) (w : FVec Ideal S512x26 φ₂) (p : Fin 64) (o : Fin 512) :
    matmul dot_S64x26_S512x26_S64x512_1_1_0_0_n_n none l w (constant S64x512 .f32 0x00000000#32) (ix2 p o)
      = ∑ k : Fin 26, l (ix2 p k) * w (ix2 o k) := by
  refine (Ideal.matmul_constant_zero_apply dot_S64x26_S512x26_S64x512_1_1_0_0_n_n none l w (ix2 p o)).trans ?_
  rw [← Equiv.sum_comp (ValueIdx.contrEquiv1 dot_S64x26_S512x26_S64x512_1_1_0_0_n_n 26 rfl rfl).symm]
  refine Finset.sum_congr rfl fun k _ => ?_
  have hk := ValueIdx.contrEquiv1_symm_val dot_S64x26_S512x26_S64x512_1_1_0_0_n_n 26 rfl rfl k
  have el : dot_S64x26_S512x26_S64x512_1_1_0_0_n_n.lhsIdx (ix2 p o) ((ValueIdx.contrEquiv1 dot_S64x26_S512x26_S64x512_1_1_0_0_n_n 26 rfl rfl).symm k) = ix2 p k := funext fun a => Fin.ext (by
    match a with
    | ⟨0, _⟩ => exact narrow_lhs_0 _ _
    | ⟨1, _⟩ => exact (narrow_lhs_1 _ _).trans hk)
  have er : dot_S64x26_S512x26_S64x512_1_1_0_0_n_n.rhsIdx (ix2 p o) ((ValueIdx.contrEquiv1 dot_S64x26_S512x26_S64x512_1_1_0_0_n_n 26 rfl rfl).symm k) = ix2 o k := funext fun a => Fin.ext (by
    match a with
    | ⟨0, _⟩ => exact narrow_rhs_0 _ _
    | ⟨1, _⟩ => exact (narrow_rhs_1 _ _).trans hk)
  rw [el, er]

/-! ## The layout operations at an index -/

section Layout
variable {α : Type}

/-- A bias `[512]` viewed `[1, 512]` and repeated down `a` rows reads, at `(r, o)`, the bias at `o`. -/
theorem bias_apply {a : ℕ} (bb : S512.Idx → α) (h1 : S512.ShapeCasts S1x512) (h2 : S1x512.Broadcasts ⟨2, ![a, 512]⟩)
    (r : Fin a) (o : Fin 512) :
    broadcastTo ⟨2, ![a, 512]⟩ (shapeCast S1x512 bb h1) h2 (ix2 r o) = bb (ix1 o) :=
  (broadcastTo_1b_ab_apply _ h2 r o).trans (shapeCast_a_1a_apply bb h1 0 o)

/-- `[64, 512]` viewed `[64, 1, 512]` reads, at `(p, u, o)`, the operand at `(p, o)`. -/
theorem cast_mid_unit_apply (x : S64x512.Idx → α) (h : S64x512.ShapeCasts S64x1x512) (p : Fin 64) (u : Fin 1) (o : Fin 512) :
    shapeCast S64x1x512 x h (ix3 p u o) = x (ix2 p o) :=
  shapeCast_apply x h _ _ (by
    have hu : u.val = 0 := by omega
    rw [Shape.rowMajor_val_three, Shape.rowMajor_val_two]
    show p.val * 512 + o.val = (p.val * 1 + u.val) * 512 + o.val
    rw [hu, Nat.mul_one, Nat.add_zero])

/-- `[64, 1, 512]` repeated along its unit axis reads, at `(p, q, o)`, the operand at `(p, 0, o)`. -/
theorem bcast_mid_apply (x : S64x1x512.Idx → α) (h : S64x1x512.Broadcasts S64x64x512) (p q : Fin 64) (o : Fin 512) :
    broadcastTo S64x64x512 x h (ix3 p q o) = x (ix3 p (0 : Fin 1) o) := by
  refine broadcastTo_apply x h (ix3 p q o) (ix3 p (0 : Fin 1) o) fun ax => ?_
  match ax with
  | ⟨0, _⟩ =>
    show p.val = if (64 : ℕ) = 1 then 0 else p.val
    rw [if_neg (by decide)]
  | ⟨1, _⟩ => rfl
  | ⟨2, _⟩ =>
    show o.val = if (512 : ℕ) = 1 then 0 else o.val
    rw [if_neg (by decide)]

/-- `[1, 64, 512]` repeated along its unit axis reads, at `(p, q, o)`, the operand at `(0, q, o)`. -/
theorem bcast_lead_apply (x : S1x64x512.Idx → α) (h : S1x64x512.Broadcasts S64x64x512) (p q : Fin 64) (o : Fin 512) :
    broadcastTo S64x64x512 x h (ix3 p q o) = x (ix3 (0 : Fin 1) q o) := by
  refine broadcastTo_apply x h (ix3 p q o) (ix3 (0 : Fin 1) q o) fun ax => ?_
  match ax with
  | ⟨0, _⟩ => rfl
  | ⟨1, _⟩ =>
    show q.val = if (64 : ℕ) = 1 then 0 else q.val
    rw [if_neg (by decide)]
  | ⟨2, _⟩ =>
    show o.val = if (512 : ℕ) = 1 then 0 else o.val
    rw [if_neg (by decide)]

/-- `[64, 64, 512]` flattened to `[4096, 512]` reads, at `(r, o)`, the operand at `(r / 64, r % 64, o)`. -/
theorem flatten_apply (x : S64x64x512.Idx → α) (h : S64x64x512.ShapeCasts S4096x512) (r : Fin 4096) (o : Fin 512) :
    shapeCast S4096x512 x h (ix2 r o) = x (ix3 (rowP r) (rowQ r) o) :=
  shapeCast_apply x h _ _ (by
    rw [Shape.rowMajor_val_three, Shape.rowMajor_val_two]
    show ((r.val / 64) * 64 + r.val % 64) * 512 + o.val = r.val * 512 + o.val
    rw [Nat.div_add_mod' r.val 64])

/-- `[512]` viewed `[1, 512]` and then `[1, 1, 512]` reads, at `(0, 0, o)`, the operand at `o`. -/
theorem cast_two_units_apply (x : S512.Idx → α) (h1 : S512.ShapeCasts S1x512) (h2 : S1x512.ShapeCasts S1x1x512)
    (u v : Fin 1) (o : Fin 512) :
    shapeCast S1x1x512 (shapeCast S1x512 x h1) h2 (ix3 u v o) = x (ix1 o) :=
  (shapeCast_ab_1ab_apply _ h2 u v o).trans (shapeCast_a_1a_apply x h1 v o)

end Layout

/-! ## The sum over the rows -/

/-- The sum over axis 0 of a `[4096, 512]` array, from the zero word, at `o`: the sum of column `o`. -/
theorem colsum_apply (src : FVec Ideal S4096x512 .f32) (h : S4096x512.Reduces [0] S512) (hφ : FKind.Formats .f32)
    (hacc : (0x00000000#32 : BitVec 32) = 0x00000000#32) (o : Fin 512) :
    multiReduction (F := Ideal) .add [0] S512 src 0x00000000#32 h hφ hacc (ix1 o) = ∑ r : Fin 4096, src (ix2 r o) := by
  refine (Ideal.multiReduction_add_single src 0x00000000#32 h hφ hacc (ix1 o)).trans ?_
  show ∑ r : Fin 4096, src (h.lift (ix1 o) r) = ∑ r : Fin 4096, src (ix2 r o)
  refine Finset.sum_congr rfl fun r _ => congrArg src (funext fun a => Fin.ext ?_)
  match a with
  | ⟨0, _⟩ => rfl
  | ⟨1, _⟩ => rfl

/-! ## One dense layer at an index -/

/-- A dense layer as the body writes it — the rows narrowed (the identity on extended reals), the wide product with the
    weights, the bias repeated down the rows, the clamp at the zero word — reads, at `(r, o)`, `denseRow` of row `r`. -/
theorem dense_apply (h : FVec Ideal S4096x512 .f32) (w : FVec Ideal S512x512 .bf16) (bb : FVec Ideal S512 .f32)
    (hlt : FTy.bits .bf16 < FTy.bits .f32) (hw : S512x512.ShapeCasts S512x512) (hb : S512.ShapeCasts S1x512)
    (hbc : S1x512.Broadcasts S4096x512) (r : Fin 4096) (o : Fin 512) :
    maximumf (addf (matmul dot_S4096x512_S512x512_S4096x512_1_1_0_0_n_n none (truncf .bf16 h hlt) (shapeCast S512x512 w hw)
          (constant S4096x512 .f32 0x00000000#32))
        (broadcastTo S4096x512 (shapeCast S1x512 bb hb) hbc))
      (broadcast S4096x512 (Scalar.ofBits .f32 0x00000000#32)) (ix2 r o)
      = denseRow (fun o' k => w (ix2 o' k)) (fun o' => bb (ix1 o')) (fun k => h (ix2 r k)) o := by
  rw [maximumf_apply, addf_apply, broadcast_apply, matmul_wide_apply, bias_apply, shapeCast_self]
  rfl

/-! ## The body's value -/

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The one whole-buffer store of the body leaves its payload, computed from the whole input buffers. -/
theorem out_eq_payload (x0 : Vec Ideal S1x64x26 .bf16) (x1 x2 : Vec Ideal S512x26 .bf16) (x3 : Vec Ideal S512 .f32)
    (x4 : Vec Ideal S512x512 .bf16) (x5 : Vec Ideal S512 .f32) (x6 : Vec Ideal S512x512 .bf16) (x7 : Vec Ideal S512 .f32)
    (x8 : Vec Ideal S512x512 .bf16) (x9 : Vec Ideal S512 .f32) :
    out0_10 (F := Ideal) x0 x1 x2 x3 x4 x5 x6 x7 x8 x9
      = k0_pay1 (k0_pay2 x0 x1 x2 x3 x4 x5 x6 x7) (Scalar.ofBits .f32 0x00000000#32) x8 x9 := by
  unfold out0_10
  rw [View.canon_unit_zero zeros3]
  simp only [View.ld_unit_zero (S := S1x64x26) zeros3, View.ld_unit_zero (S := S512x26) zeros2,
    View.ld_unit_zero (S := S512) zeros1, View.ld_unit_zero (S := S512x512) zeros2]

/-- What the body leaves at feature `o` of its output block: the sum over the 4096 pair rows of the three dense layers
    applied to the first layer's row. -/
theorem body_hsum (x0 : Vec Ideal S1x64x26 .bf16) (x1 x2 : Vec Ideal S512x26 .bf16) (x3 : Vec Ideal S512 .f32)
    (x4 : Vec Ideal S512x512 .bf16) (x5 : Vec Ideal S512 .f32) (x6 : Vec Ideal S512x512 .bf16) (x7 : Vec Ideal S512 .f32)
    (x8 : Vec Ideal S512x512 .bf16) (x9 : Vec Ideal S512 .f32) (o : Fin 512) :
    Cert.KernelIdeal.Gen.out0_10 (F := Ideal) x0 x1 x2 x3 x4 x5 x6 x7 x8 x9 (ValueIdx.ix3 (0 : Fin 1) (0 : Fin 1) o)
      = Cert.Relational.hsumK (fun p k => x0 (ValueIdx.ix3 (0 : Fin 1) p k)) (fun o' k => x1 (ValueIdx.ix2 o' k))
          (fun o' k => x2 (ValueIdx.ix2 o' k)) (fun o' => x3 (ValueIdx.ix1 o'))
          (fun o' k => x4 (ValueIdx.ix2 o' k)) (fun o' => x5 (ValueIdx.ix1 o')) (fun o' k => x6 (ValueIdx.ix2 o' k))
          (fun o' => x7 (ValueIdx.ix1 o')) (fun o' k => x8 (ValueIdx.ix2 o' k)) (fun o' => x9 (ValueIdx.ix1 o')) o := by
  rw [out_eq_payload]
  unfold k0_pay1
  refine (cast_two_units_apply _ _ _ 0 0 o).trans ?_
  refine (colsum_apply _ _ _ _ o).trans ?_
  unfold hsumK
  refine Finset.sum_congr rfl fun r _ => ?_
  unfold tower
  refine (dense_apply _ _ _ _ _ _ _ r o).trans ?_
  refine congrArg (fun h => denseRow (fun o' k => x8 (ix2 o' k)) (fun o' => x9 (ix1 o')) h o) (funext fun k3 => ?_)
  unfold k0_pay2
  refine (dense_apply _ _ _ _ _ _ _ r k3).trans ?_
  refine congrArg (fun h => denseRow (fun o' k => x6 (ix2 o' k)) (fun o' => x7 (ix1 o')) h k3) (funext fun k2 => ?_)
  refine (dense_apply _ _ _ _ _ _ _ r k2).trans ?_
  refine congrArg (fun h => denseRow (fun o' k => x4 (ix2 o' k)) (fun o' => x5 (ix1 o')) h k2) (funext fun k1 => ?_)
  refine (flatten_apply _ _ r k1).trans ?_
  rw [maximumf_apply, addf_apply, broadcast_apply, bcast_mid_apply, bcast_lead_apply, cast_mid_unit_apply,
    shapeCast_ab_1ab_apply, addf_apply, matmul_narrow_apply, matmul_narrow_apply, bias_apply]
  simp only [shapeCast_self, shapeCast_1ab_ab_apply]
  rfl

end Cert.BodyAgg

end
-- ==== Proof.Tail.lean ====
/-
  The last part of both programs, from the aggregated features on: the question embedding is joined to them, two
  dense layers with `max(·, 0)` and one without follow, and the rows are normalised by `log_softmax`
  (`l - max l - log (∑ exp (l - max l))`, the maximum taken from `-∞`). Both programs apply exactly these
  operations to their aggregates, so the chain is carried as one function and never opened.
-/
import proofs.«121392_j6966436954182_2_alg».proof.Proof.Gen.KernelIdeal
import Idealize.ShloMosaic.PureOps.Ideal

noncomputable section

namespace Cert.Tail

open Idealize.ShloMosaic Cert.KernelIdeal Cert.KernelIdeal.Gen

/-- The three last dense layers on the joined features. -/
def logits (h : FVec Ideal S32x512 .f32) (q : FVec Ideal S32x256 .f32) (w4 : FVec Ideal S512x768 .f32) (b4 : FVec Ideal S512 .f32)
    (w5 : FVec Ideal S512x512 .f32) (b5 : FVec Ideal S512 .f32) (w6 : FVec Ideal S28x512 .f32) (b6 : FVec Ideal S28 .f32) : FVec Ideal S32x28 .f32 :=
  addf (Host.dotGeneral (F := Ideal) dot_S32x512_S512x28_S32x28_1_0_0_1_n_n none
    (maximumf (addf (Host.dotGeneral (F := Ideal) dot_S32x512_S512x512_S32x512_1_0_0_1_n_n none
      (maximumf (addf (Host.dotGeneral (F := Ideal) dot_S32x768_S768x512_S32x512_1_0_0_1_n_n none
          (concatenate S32x768 1 [⟨S32x512, h⟩, ⟨S32x256, q⟩] concatenates_S32x512_S32x256_S32x768_d1)
          (transpose S768x512 [1, 0] w4 transposes_S512x768_S768x512_1_0))
        (broadcastInDim S32x512 ![0, 1] bcast_S1x512_S32x512_0_1 (broadcastInDim S1x512 ![1] bcast_S512_S1x512_1 b4)))
        (broadcastInDim S32x512 ![] bcast_S_S32x512 (constant (F := Ideal) S_ .f32 0x00000000#32)))
      (transpose S512x512 [1, 0] w5 transposes_S512x512_S512x512_1_0))
      (broadcastInDim S32x512 ![0, 1] bcast_S1x512_S32x512_0_1 (broadcastInDim S1x512 ![1] bcast_S512_S1x512_1 b5)))
      (broadcastInDim S32x512 ![] bcast_S_S32x512 (constant (F := Ideal) S_ .f32 0x00000000#32)))
    (transpose S512x28 [1, 0] w6 transposes_S28x512_S512x28_1_0))
    (broadcastInDim S32x28 ![0, 1] bcast_S1x28_S32x28_0_1 (broadcastInDim S1x28 ![1] bcast_S28_S1x28_1 b6))

/-- A row's logits minus their maximum. -/
def centred (l : FVec Ideal S32x28 .f32) : FVec Ideal S32x28 .f32 :=
  subf l (broadcastInDim S32x28 ![0, 1] bcast_S32x1_S32x28_0_1 (broadcastInDim S32x1 ![0] bcast_S32_S32x1_0
    (maximumf (broadcastInDim S32 ![] bcast_S_S32 (constant (F := Ideal) S_ .f32 0xFF800000#32))
      (Host.reduce FloatOps.maximumf l (constant (F := Ideal) S_ .f32 0xFF800000#32) reducesTo_S32x28_S32_d1 h_S_))))

/-- `log_softmax` along the rows. -/
def logSoftmax (l : FVec Ideal S32x28 .f32) : FVec Ideal S32x28 .f32 :=
  subf (centred l) (broadcastInDim S32x28 ![0, 1] bcast_S32x1_S32x28_0_1 (Host.log (F := Ideal) (broadcastInDim S32x1 ![0] bcast_S32_S32x1_0
    (Host.reduceAdd (F := Ideal) (Host.exp (F := Ideal) (centred l)) (constant (F := Ideal) S_ .f32 0x00000000#32) reducesTo_S32x28_S32_d1 h_S_))))

/-- The whole chain. -/
def tail (h : FVec Ideal S32x512 .f32) (q : FVec Ideal S32x256 .f32) (w4 : FVec Ideal S512x768 .f32) (b4 : FVec Ideal S512 .f32)
    (w5 : FVec Ideal S512x512 .f32) (b5 : FVec Ideal S512 .f32) (w6 : FVec Ideal S28x512 .f32) (b6 : FVec Ideal S28 .f32) : FVec Ideal S32x28 .f32 :=
  logSoftmax (logits h q w4 b4 w5 b5 w6 b6)

end Cert.Tail

end
-- ==== Proof.RefTail.lean ====
/-
  The idealized reference's result: the shared last part of the program (`Cert.Tail.tail`) applied to its aggregated
  features (the stage that sums the 4096 pair rows of every batch element) and to the remaining arguments.
-/
import proofs.«121392_j6966436954182_2_alg».proof.Proof.Gen.ReferenceIdeal.Read
import proofs.«121392_j6966436954182_2_alg».proof.Proof.Tail

set_option maxRecDepth 16384

noncomputable section

namespace Cert.RefTail

open Idealize.ShloMosaic
open Cert.ReferenceIdeal.Read

/-- The reference's last stage is the shared chain of its aggregate. -/
theorem v50_eq_tail (x0 : (⟨Cert.ReferenceIdeal.S32x64x26, .f32⟩ : BufTy).Contents (Elt Ideal)) (x1 : (⟨Cert.ReferenceIdeal.S32x256, .f32⟩ : BufTy).Contents (Elt Ideal)) (x2 : (⟨Cert.ReferenceIdeal.S512x52, .f32⟩ : BufTy).Contents (Elt Ideal)) (x3 : (⟨Cert.ReferenceIdeal.S512, .f32⟩ : BufTy).Contents (Elt Ideal))
    (x4 : (⟨Cert.ReferenceIdeal.S512x512, .f32⟩ : BufTy).Contents (Elt Ideal)) (x5 : (⟨Cert.ReferenceIdeal.S512, .f32⟩ : BufTy).Contents (Elt Ideal)) (x6 : (⟨Cert.ReferenceIdeal.S512x512, .f32⟩ : BufTy).Contents (Elt Ideal)) (x7 : (⟨Cert.ReferenceIdeal.S512, .f32⟩ : BufTy).Contents (Elt Ideal))
    (x8 : (⟨Cert.ReferenceIdeal.S512x512, .f32⟩ : BufTy).Contents (Elt Ideal)) (x9 : (⟨Cert.ReferenceIdeal.S512, .f32⟩ : BufTy).Contents (Elt Ideal)) (x10 : (⟨Cert.ReferenceIdeal.S512x768, .f32⟩ : BufTy).Contents (Elt Ideal)) (x11 : (⟨Cert.ReferenceIdeal.S512, .f32⟩ : BufTy).Contents (Elt Ideal))
    (x12 : (⟨Cert.ReferenceIdeal.S512x512, .f32⟩ : BufTy).Contents (Elt Ideal)) (x13 : (⟨Cert.ReferenceIdeal.S512, .f32⟩ : BufTy).Contents (Elt Ideal)) (x14 : (⟨Cert.ReferenceIdeal.S28x512, .f32⟩ : BufTy).Contents (Elt Ideal)) (x15 : (⟨Cert.ReferenceIdeal.S28, .f32⟩ : BufTy).Contents (Elt Ideal)) :
    val_main_v50 (F := Ideal) x0 x1 x2 x3 x4 x5 x6 x7 x8 x9 x10 x11 x12 x13 x14 x15
      = Cert.Tail.tail (val_main_v31 (F := Ideal) x0 x2 x3 x4 x5 x6 x7 x8 x9) x1 x10 x11 x12 x13 x14 x15 := by
  unfold val_main_v50 val_main_call6_v10 val_main_call6_v9 val_main_call6_v8 val_main_call6_v7 val_main_call6_cst_1 val_main_call6_v6 val_main_call6_v5 val_main_call6_v4 val_main_call6_v3 val_main_call6_v2 val_main_call6_v1 val_main_call6_cst_0 val_main_call6_v0 val_main_call6_cst val_main_v49 val_main_v48 val_main_v47 val_main_v46 val_main_v45 val_main_v44 val_main_call5_v0 val_main_call5_cst val_main_v43 val_main_v42 val_main_v41 val_main_v40 val_main_v39 val_main_v38 val_main_call4_v0 val_main_call4_cst val_main_v37 val_main_v36 val_main_v35 val_main_v34 val_main_v33 val_main_v32
  unfold Cert.Tail.tail Cert.Tail.logSoftmax Cert.Tail.centred Cert.Tail.logits
  rfl

end Cert.RefTail

end
-- ==== Proof.KernelBlocks.lean ====
/-
  The idealized kernel's input blocks, read at coordinates.

  The region is entered after the host has changed the format of `x`, of the two halves of `W0` (columns 0–25 and
  26–51) and of `W1`, `W2`, `W3`; on the extended reals a change of format is the identity, so each staged array is
  the argument (or the slice of the argument) itself. Grid point `t` stages batch element `t` of `x` and the whole of
  every weight and bias.
-/
import proofs.«121392_j6966436954182_2_alg».proof.Proof.Gen.KernelIdeal.Frame
import Idealize.ShloMosaic.Lib.ValueIdx
import Idealize.ShloMosaic.Lib.Pipeline.Value
import Idealize.ShloMosaic.Lib.StableHlo.Run

set_option maxRecDepth 16384

noncomputable section

namespace Cert.KernelAgg

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ)

/-! ## The arrays the region finds -/

theorem V_x (c : Dev nD) :
    (V m c main_v0 : S32x64x26.Idx → EReal) = (m ((c : Thread nD τ).loc main_arg0) : S32x64x26.Idx → EReal) := by
  show StableHlo.after hostOps0 (fun b => m (c, b)) (Proc.devRef .tc main_v0) = _
  after_results; rfl

theorem V_w1 (c : Dev nD) :
    (V m c main_v5 : S512x512.Idx → EReal) = (m ((c : Thread nD τ).loc main_arg4) : S512x512.Idx → EReal) := by
  show StableHlo.after hostOps0 (fun b => m (c, b)) (Proc.devRef .tc main_v5) = _
  after_results; rfl

theorem V_w2 (c : Dev nD) :
    (V m c main_v6 : S512x512.Idx → EReal) = (m ((c : Thread nD τ).loc main_arg6) : S512x512.Idx → EReal) := by
  show StableHlo.after hostOps0 (fun b => m (c, b)) (Proc.devRef .tc main_v6) = _
  after_results; rfl

theorem V_w3 (c : Dev nD) :
    (V m c main_v7 : S512x512.Idx → EReal) = (m ((c : Thread nD τ).loc main_arg8) : S512x512.Idx → EReal) := by
  show StableHlo.after hostOps0 (fun b => m (c, b)) (Proc.devRef .tc main_v7) = _
  after_results; rfl

theorem V_b0 (c : Dev nD) :
    (V m c main_arg3 : S512.Idx → EReal) = (m ((c : Thread nD τ).loc main_arg3) : S512.Idx → EReal) := by
  show StableHlo.after hostOps0 (fun b => m (c, b)) (Proc.devRef .tc main_arg3) = _
  after_results

theorem V_b1 (c : Dev nD) :
    (V m c main_arg5 : S512.Idx → EReal) = (m ((c : Thread nD τ).loc main_arg5) : S512.Idx → EReal) := by
  show StableHlo.after hostOps0 (fun b => m (c, b)) (Proc.devRef .tc main_arg5) = _
  after_results

theorem V_b2 (c : Dev nD) :
    (V m c main_arg7 : S512.Idx → EReal) = (m ((c : Thread nD τ).loc main_arg7) : S512.Idx → EReal) := by
  show StableHlo.after hostOps0 (fun b => m (c, b)) (Proc.devRef .tc main_arg7) = _
  after_results

theorem V_b3 (c : Dev nD) :
    (V m c main_arg9 : S512.Idx → EReal) = (m ((c : Thread nD τ).loc main_arg9) : S512.Idx → EReal) := by
  show StableHlo.after hostOps0 (fun b => m (c, b)) (Proc.devRef .tc main_arg9) = _
  after_results

/-- Columns 0–25 of `W0`. -/
theorem V_w0lo (c : Dev nD) (o : Fin 512) (k : Fin 26) :
    (V m c main_v2 : S512x26.Idx → EReal) (ix2 o k)
      = (m ((c : Thread nD τ).loc main_arg2) : S512x52.Idx → EReal) (ix2 o ⟨k.val, by have := k.isLt; omega⟩) := by
  have e : (V m c main_v2 : S512x26.Idx → EReal)
      = extractStridedSlice S512x26 ![0, 0] (m ((c : Thread nD τ).loc main_arg2) : S512x52.Idx → EReal) slices_S512x52_S512x26_0_0 := by
    show StableHlo.after hostOps0 (fun b => m (c, b)) (Proc.devRef .tc main_v2) = _
    after_results; rfl
  refine (congrFun e _).trans ?_
  exact extractStridedSlice_apply _ _ slices_S512x52_S512x26_0_0 (ix2 o k) (ix2 o ⟨k.val, by have := k.isLt; omega⟩)
    (fun a => match a with
      | ⟨0, _⟩ => (Nat.zero_add _).symm
      | ⟨1, _⟩ => (Nat.zero_add _).symm)

/-- Columns 26–51 of `W0`. -/
theorem V_w0hi (c : Dev nD) (o : Fin 512) (k : Fin 26) :
    (V m c main_v4 : S512x26.Idx → EReal) (ix2 o k)
      = (m ((c : Thread nD τ).loc main_arg2) : S512x52.Idx → EReal) (ix2 o ⟨26 + k.val, by have := k.isLt; omega⟩) := by
  have e : (V m c main_v4 : S512x26.Idx → EReal)
      = extractStridedSlice S512x26 ![0, 26] (m ((c : Thread nD τ).loc main_arg2) : S512x52.Idx → EReal) slices_S512x52_S512x26_0_26 := by
    show StableHlo.after hostOps0 (fun b => m (c, b)) (Proc.devRef .tc main_v4) = _
    after_results; rfl
  refine (congrFun e _).trans ?_
  exact extractStridedSlice_apply _ _ slices_S512x52_S512x26_0_26 (ix2 o k) (ix2 o ⟨26 + k.val, by have := k.isLt; omega⟩)
    (fun a => match a with
      | ⟨0, _⟩ => (Nat.zero_add _).symm
      | ⟨1, _⟩ => rfl)

/-! ## Where each window's block sits -/

theorem lt32 (t : Fin cfg0.N) : t.val < 32 := by
  have h := t.isLt
  have hN : cfg0.N = 32 := N_0
  omega

/-- The printed index maps over the grid: `x`'s window and the output's move along the batch axis with the point, every
    other window stays at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0
    ∧ win0_10.index t (0 : Fin 3) = t.val ∧ win0_10.index t (1 : Fin 3) = 0 ∧ win0_10.index t (2 : Fin 3) = 0 :=
  (by decide +kernel : ∀ t : Fin grid0.N, _)

/-! ## The blocks read at coordinates -/

theorem blk_x (c : Dev nD) (t : Fin cfg0.N) (p : Fin 64) (k : Fin 26) :
    iblk m c 0 t (ix3 (0 : Fin 1) p k)
      = (m ((c : Thread nD τ).loc main_arg0) : S32x64x26.Idx → EReal) (ix3 (⟨t.val, lt32 t⟩ : Fin 32) p k) := by
  show (V m c main_v0 : S32x64x26.Idx → EReal) (((cfg0.win 0).blk t).view.emb (ix3 (0 : Fin 1) p k)) = _
  refine (congrFun (V_x m c) _).trans (congrArg _ (funext fun a => Fin.ext ?_))
  obtain ⟨e0, e1, e2, -⟩ := idx_facts t
  match a with
  | ⟨0, _⟩ => show win0_0.index t (0 : Fin 3) * 1 + 1 * 0 = t.val; omega
  | ⟨1, _⟩ => show win0_0.index t (1 : Fin 3) * 64 + 1 * p.val = p.val; omega
  | ⟨2, _⟩ => show win0_0.index t (2 : Fin 3) * 26 + 1 * k.val = k.val; omega

theorem blk_w0lo (c : Dev nD) (t : Fin cfg0.N) (o : Fin 512) (k : Fin 26) :
    iblk m c 1 t (ix2 o k) = (m ((c : Thread nD τ).loc main_arg2) : S512x52.Idx → EReal) (ix2 o ⟨k.val, by have := k.isLt; omega⟩) := by
  have he : ((cfg0.win 1).blk t).view.emb (ix2 o k) = (ix2 o k : S512x26.Idx) := by
    obtain ⟨-, -, -, e10, e11, e20, e21, e3, e40, e41, e5, e60, e61, e7, e80, e81, e9, -⟩ := idx_facts t
    funext a; apply Fin.ext
    match a with
    | ⟨0, _⟩ => show win0_1.index t (0 : Fin 2) * 512 + 1 * o.val = o.val; omega
    | ⟨1, _⟩ => show win0_1.index t (1 : Fin 2) * 26 + 1 * k.val = k.val; omega
  show (V m c main_v2 : S512x26.Idx → EReal) (((cfg0.win 1).blk t).view.emb (ix2 o k)) = _
  exact (congrArg (V m c main_v2 : S512x26.Idx → EReal) he).trans (V_w0lo m c o k)

theorem blk_w0hi (c : Dev nD) (t : Fin cfg0.N) (o : Fin 512) (k : Fin 26) :
    iblk m c 2 t (ix2 o k) = (m ((c : Thread nD τ).loc main_arg2) : S512x52.Idx → EReal) (ix2 o ⟨26 + k.val, by have := k.isLt; omega⟩) := by
  have he : ((cfg0.win 2).blk t).view.emb (ix2 o k) = (ix2 o k : S512x26.Idx) := by
    obtain ⟨-, -, -, e10, e11, e20, e21, e3, e40, e41, e5, e60, e61, e7, e80, e81, e9, -⟩ := idx_facts t
    funext a; apply Fin.ext
    match a with
    | ⟨0, _⟩ => show win0_2.index t (0 : Fin 2) * 512 + 1 * o.val = o.val; omega
    | ⟨1, _⟩ => show win0_2.index t (1 : Fin 2) * 26 + 1 * k.val = k.val; omega
  show (V m c main_v4 : S512x26.Idx → EReal) (((cfg0.win 2).blk t).view.emb (ix2 o k)) = _
  exact (congrArg (V m c main_v4 : S512x26.Idx → EReal) he).trans (V_w0hi m c o k)

theorem blk_w1 (c : Dev nD) (t : Fin cfg0.N) (o : Fin 512) (k : Fin 512) :
    iblk m c 4 t (ix2 o k) = (m ((c : Thread nD τ).loc main_arg4) : S512x512.Idx → EReal) (ix2 o k) := by
  have he : ((cfg0.win 4).blk t).view.emb (ix2 o k) = (ix2 o k : S512x512.Idx) := by
    obtain ⟨-, -, -, e10, e11, e20, e21, e3, e40, e41, e5, e60, e61, e7, e80, e81, e9, -⟩ := idx_facts t
    funext a; apply Fin.ext
    match a with
    | ⟨0, _⟩ => show win0_4.index t (0 : Fin 2) * 512 + 1 * o.val = o.val; omega
    | ⟨1, _⟩ => show win0_4.index t (1 : Fin 2) * 512 + 1 * k.val = k.val; omega
  show (V m c main_v5 : S512x512.Idx → EReal) (((cfg0.win 4).blk t).view.emb (ix2 o k)) = _
  exact (congrArg (V m c main_v5 : S512x512.Idx → EReal) he).trans (congrFun (V_w1 m c) _)

theorem blk_w2 (c : Dev nD) (t : Fin cfg0.N) (o : Fin 512) (k : Fin 512) :
    iblk m c 6 t (ix2 o k) = (m ((c : Thread nD τ).loc main_arg6) : S512x512.Idx → EReal) (ix2 o k) := by
  have he : ((cfg0.win 6).blk t).view.emb (ix2 o k) = (ix2 o k : S512x512.Idx) := by
    obtain ⟨-, -, -, e10, e11, e20, e21, e3, e40, e41, e5, e60, e61, e7, e80, e81, e9, -⟩ := idx_facts t
    funext a; apply Fin.ext
    match a with
    | ⟨0, _⟩ => show win0_6.index t (0 : Fin 2) * 512 + 1 * o.val = o.val; omega
    | ⟨1, _⟩ => show win0_6.index t (1 : Fin 2) * 512 + 1 * k.val = k.val; omega
  show (V m c main_v6 : S512x512.Idx → EReal) (((cfg0.win 6).blk t).view.emb (ix2 o k)) = _
  exact (congrArg (V m c main_v6 : S512x512.Idx → EReal) he).trans (congrFun (V_w2 m c) _)

theorem blk_w3 (c : Dev nD) (t : Fin cfg0.N) (o : Fin 512) (k : Fin 512) :
    iblk m c 8 t (ix2 o k) = (m ((c : Thread nD τ).loc main_arg8) : S512x512.Idx → EReal) (ix2 o k) := by
  have he : ((cfg0.win 8).blk t).view.emb (ix2 o k) = (ix2 o k : S512x512.Idx) := by
    obtain ⟨-, -, -, e10, e11, e20, e21, e3, e40, e41, e5, e60, e61, e7, e80, e81, e9, -⟩ := idx_facts t
    funext a; apply Fin.ext
    match a with
    | ⟨0, _⟩ => show win0_8.index t (0 : Fin 2) * 512 + 1 * o.val = o.val; omega
    | ⟨1, _⟩ => show win0_8.index t (1 : Fin 2) * 512 + 1 * k.val = k.val; omega
  show (V m c main_v7 : S512x512.Idx → EReal) (((cfg0.win 8).blk t).view.emb (ix2 o k)) = _
  exact (congrArg (V m c main_v7 : S512x512.Idx → EReal) he).trans (congrFun (V_w3 m c) _)

theorem blk_b0 (c : Dev nD) (t : Fin cfg0.N) (o : Fin 512) :
    iblk m c 3 t (ix1 o) = (m ((c : Thread nD τ).loc main_arg3) : S512.Idx → EReal) (ix1 o) := by
  have he : ((cfg0.win 3).blk t).view.emb (ix1 o) = (ix1 o : S512.Idx) := by
    obtain ⟨-, -, -, e10, e11, e20, e21, e3, e40, e41, e5, e60, e61, e7, e80, e81, e9, -⟩ := idx_facts t
    funext a; apply Fin.ext
    match a with
    | ⟨0, _⟩ => show win0_3.index t (0 : Fin 1) * 512 + 1 * o.val = o.val; omega
  show (V m c main_arg3 : S512.Idx → EReal) (((cfg0.win 3).blk t).view.emb (ix1 o)) = _
  exact (congrArg (V m c main_arg3 : S512.Idx → EReal) he).trans (congrFun (V_b0 m c) _)

theorem blk_b1 (c : Dev nD) (t : Fin cfg0.N) (o : Fin 512) :
    iblk m c 5 t (ix1 o) = (m ((c : Thread nD τ).loc main_arg5) : S512.Idx → EReal) (ix1 o) := by
  have he : ((cfg0.win 5).blk t).view.emb (ix1 o) = (ix1 o : S512.Idx) := by
    obtain ⟨-, -, -, e10, e11, e20, e21, e3, e40, e41, e5, e60, e61, e7, e80, e81, e9, -⟩ := idx_facts t
    funext a; apply Fin.ext
    match a with
    | ⟨0, _⟩ => show win0_5.index t (0 : Fin 1) * 512 + 1 * o.val = o.val; omega
  show (V m c main_arg5 : S512.Idx → EReal) (((cfg0.win 5).blk t).view.emb (ix1 o)) = _
  exact (congrArg (V m c main_arg5 : S512.Idx → EReal) he).trans (congrFun (V_b1 m c) _)

theorem blk_b2 (c : Dev nD) (t : Fin cfg0.N) (o : Fin 512) :
    iblk m c 7 t (ix1 o) = (m ((c : Thread nD τ).loc main_arg7) : S512.Idx → EReal) (ix1 o) := by
  have he : ((cfg0.win 7).blk t).view.emb (ix1 o) = (ix1 o : S512.Idx) := by
    obtain ⟨-, -, -, e10, e11, e20, e21, e3, e40, e41, e5, e60, e61, e7, e80, e81, e9, -⟩ := idx_facts t
    funext a; apply Fin.ext
    match a with
    | ⟨0, _⟩ => show win0_7.index t (0 : Fin 1) * 512 + 1 * o.val = o.val; omega
  show (V m c main_arg7 : S512.Idx → EReal) (((cfg0.win 7).blk t).view.emb (ix1 o)) = _
  exact (congrArg (V m c main_arg7 : S512.Idx → EReal) he).trans (congrFun (V_b2 m c) _)

theorem blk_b3 (c : Dev nD) (t : Fin cfg0.N) (o : Fin 512) :
    iblk m c 9 t (ix1 o) = (m ((c : Thread nD τ).loc main_arg9) : S512.Idx → EReal) (ix1 o) := by
  have he : ((cfg0.win 9).blk t).view.emb (ix1 o) = (ix1 o : S512.Idx) := by
    obtain ⟨-, -, -, e10, e11, e20, e21, e3, e40, e41, e5, e60, e61, e7, e80, e81, e9, -⟩ := idx_facts t
    funext a; apply Fin.ext
    match a with
    | ⟨0, _⟩ => show win0_9.index t (0 : Fin 1) * 512 + 1 * o.val = o.val; omega
  show (V m c main_arg9 : S512.Idx → EReal) (((cfg0.win 9).blk t).view.emb (ix1 o)) = _
  exact (congrArg (V m c main_arg9 : S512.Idx → EReal) he).trans (congrFun (V_b3 m c) _)

end Cert.KernelAgg

end
-- ==== Proof.KernelArray.lean ====
/-
  The array the region leaves: batch element `b`'s aggregated features, `hsumK` of `x[b]`, the two halves of `W0` and
  the weights and biases of layers 0–3.

  Grid point `t` writes back the block `[t, 0, :]` of the output; the 32 points' blocks tile the array, so after the
  region the array is that function everywhere.
-/
import proofs.«121392_j6966436954182_2_alg».proof.Proof.KernelBlocks
import proofs.«121392_j6966436954182_2_alg».proof.Proof.Spec

set_option maxRecDepth 16384

noncomputable section

namespace Cert.KernelAgg

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen

variable (m : (ℓ : Loc nD τ sig) → Buf (Elt Ideal) ℓ)

/-- What the body leaves in its output block, as a statement about any ten input blocks: entry `[0, 0, o]` is the
    aggregate of the block's pair rows. -/
def BodyIs : Prop :=
  ∀ (x0 : Vec Ideal S1x64x26 .bf16) (x1 x2 : Vec Ideal S512x26 .bf16) (x3 : Vec Ideal S512 .f32) (x4 : Vec Ideal S512x512 .bf16) (x5 : Vec Ideal S512 .f32) (x6 : Vec Ideal S512x512 .bf16) (x7 : Vec Ideal S512 .f32) (x8 : Vec Ideal S512x512 .bf16) (x9 : Vec Ideal S512 .f32) (o : Fin 512),
    out0_10 (F := Ideal) x0 x1 x2 x3 x4 x5 x6 x7 x8 x9 (ix3 (0 : Fin 1) (0 : Fin 1) o)
      = Cert.Relational.hsumK (fun p k => x0 (ix3 (0 : Fin 1) p k)) (fun o' k => x1 (ix2 o' k)) (fun o' k => x2 (ix2 o' k)) (fun o' => x3 (ix1 o'))
      (fun o' k => x4 (ix2 o' k)) (fun o' => x5 (ix1 o')) (fun o' k => x6 (ix2 o' k)) (fun o' => x7 (ix1 o'))
      (fun o' k => x8 (ix2 o' k)) (fun o' => x9 (ix1 o')) o

/-- The output array as one function of the argument arrays. -/
def G (c : Dev nD) : S32x1x512.Idx → EReal := fun i =>
  Cert.Relational.hsumK (fun p k => (m ((c : Thread nD τ).loc main_arg0) : S32x64x26.Idx → EReal) (ix3 (⟨(i 0).val, (i 0).isLt⟩ : Fin 32) p k))
      (Cert.Relational.colsLo fun o' j => (m ((c : Thread nD τ).loc main_arg2) : S512x52.Idx → EReal) (ix2 o' j)) (Cert.Relational.colsHi fun o' j => (m ((c : Thread nD τ).loc main_arg2) : S512x52.Idx → EReal) (ix2 o' j))
      (fun o' => (m ((c : Thread nD τ).loc main_arg3) : S512.Idx → EReal) (ix1 o'))
      (fun o' k => (m ((c : Thread nD τ).loc main_arg4) : S512x512.Idx → EReal) (ix2 o' k)) (fun o' => (m ((c : Thread nD τ).loc main_arg5) : S512.Idx → EReal) (ix1 o'))
      (fun o' k => (m ((c : Thread nD τ).loc main_arg6) : S512x512.Idx → EReal) (ix2 o' k)) (fun o' => (m ((c : Thread nD τ).loc main_arg7) : S512.Idx → EReal) (ix1 o'))
      (fun o' k => (m ((c : Thread nD τ).loc main_arg8) : S512x512.Idx → EReal) (ix2 o' k)) (fun o' => (m ((c : Thread nD τ).loc main_arg9) : S512.Idx → EReal) (ix1 o')) (⟨(i 2).val, (i 2).isLt⟩ : Fin 512)

theorem G_at (c : Dev nD) (b : Fin 32) (o : Fin 512) (i : S32x1x512.Idx) (h0 : (i 0).val = b.val) (h2 : (i 2).val = o.val) :
    G m c i = Cert.Relational.hsumK (fun p k => (m ((c : Thread nD τ).loc main_arg0) : S32x64x26.Idx → EReal) (ix3 b p k))
      (Cert.Relational.colsLo fun o' j => (m ((c : Thread nD τ).loc main_arg2) : S512x52.Idx → EReal) (ix2 o' j)) (Cert.Relational.colsHi fun o' j => (m ((c : Thread nD τ).loc main_arg2) : S512x52.Idx → EReal) (ix2 o' j))
      (fun o' => (m ((c : Thread nD τ).loc main_arg3) : S512.Idx → EReal) (ix1 o'))
      (fun o' k => (m ((c : Thread nD τ).loc main_arg4) : S512x512.Idx → EReal) (ix2 o' k)) (fun o' => (m ((c : Thread nD τ).loc main_arg5) : S512.Idx → EReal) (ix1 o'))
      (fun o' k => (m ((c : Thread nD τ).loc main_arg6) : S512x512.Idx → EReal) (ix2 o' k)) (fun o' => (m ((c : Thread nD τ).loc main_arg7) : S512.Idx → EReal) (ix1 o'))
      (fun o' k => (m ((c : Thread nD τ).loc main_arg8) : S512x512.Idx → EReal) (ix2 o' k)) (fun o' => (m ((c : Thread nD τ).loc main_arg9) : S512.Idx → EReal) (ix1 o')) o := by
  unfold G
  have e0 : (⟨(i 0).val, (i 0).isLt⟩ : Fin 32) = b := Fin.ext h0
  have e2 : (⟨(i 2).val, (i 2).isLt⟩ : Fin 512) = o := Fin.ext h2
  rw [e0, e2]

/-- The body's output block at any of its indices. -/
theorem out_at (hbody : BodyIs) (x0 : Vec Ideal S1x64x26 .bf16) (x1 x2 : Vec Ideal S512x26 .bf16) (x3 : Vec Ideal S512 .f32) (x4 : Vec Ideal S512x512 .bf16) (x5 : Vec Ideal S512 .f32) (x6 : Vec Ideal S512x512 .bf16) (x7 : Vec Ideal S512 .f32) (x8 : Vec Ideal S512x512 .bf16) (x9 : Vec Ideal S512 .f32) (y : S1x1x512.Idx) :
    out0_10 (F := Ideal) x0 x1 x2 x3 x4 x5 x6 x7 x8 x9 y
      = Cert.Relational.hsumK (fun p k => x0 (ix3 (0 : Fin 1) p k)) (fun o' k => x1 (ix2 o' k)) (fun o' k => x2 (ix2 o' k)) (fun o' => x3 (ix1 o'))
      (fun o' k => x4 (ix2 o' k)) (fun o' => x5 (ix1 o')) (fun o' k => x6 (ix2 o' k)) (fun o' => x7 (ix1 o'))
      (fun o' k => x8 (ix2 o' k)) (fun o' => x9 (ix1 o')) (⟨(y 2).val, (y 2).isLt⟩ : Fin 512) := by
  have hy : y = ix3 (0 : Fin 1) (0 : Fin 1) (⟨(y 2).val, (y 2).isLt⟩ : Fin 512) := by
    funext a; apply Fin.ext
    match a with
    | ⟨0, _⟩ => have h : (y 0).val < 1 := (y 0).isLt; show (y 0).val = 0; omega
    | ⟨1, _⟩ => have h : (y 1).val < 1 := (y 1).isLt; show (y 1).val = 0; omega
    | ⟨2, _⟩ => rfl
  exact (congrArg (out0_10 (F := Ideal) x0 x1 x2 x3 x4 x5 x6 x7 x8 x9) hy).trans (hbody x0 x1 x2 x3 x4 x5 x6 x7 x8 x9 _)

/-- What point `t` writes back is block `t` of `G`. -/
theorem flushed_eq (hbody : BodyIs) (c : Dev nD) (t : Fin cfg0.N) :
    (dats m 0 c).flushed 10 t = ((cfg0.win 10).blk t).view.read (Elt Ideal) (G m c) := by
  show (cfg0.win 10).cut (grid0.coords t) ((dats m 0 c).after 10 t) = _
  rw [after0_10]
  funext j
  show out0_10 (F := Ideal) (iblk m c 0 t) (iblk m c 1 t) (iblk m c 2 t) (iblk m c 3 t) (iblk m c 4 t) (iblk m c 5 t) (iblk m c 6 t) (iblk m c 7 t) (iblk m c 8 t) (iblk m c 9 t) j = G m c (((cfg0.win 10).blk t).view.emb j)
  refine (out_at hbody (iblk m c 0 t) (iblk m c 1 t) (iblk m c 2 t) (iblk m c 3 t) (iblk m c 4 t) (iblk m c 5 t) (iblk m c 6 t) (iblk m c 7 t) (iblk m c 8 t) (iblk m c 9 t) j).trans ?_
  obtain ⟨-, -, -, -, -, -, -, -, -, -, -, -, -, -, -, -, -, e0, e1, e2⟩ := idx_facts t
  have hj0 : (j 0).val < 1 := (j 0).isLt
  have h0 : ((((cfg0.win 10).blk t).view.emb j) 0).val = (⟨t.val, lt32 t⟩ : Fin 32).val := by
    show win0_10.index t (0 : Fin 3) * 1 + 1 * (j 0).val = t.val; omega
  have h2 : ((((cfg0.win 10).blk t).view.emb j) 2).val = (⟨(j 2).val, (j 2).isLt⟩ : Fin 512).val := by
    show win0_10.index t (2 : Fin 3) * 512 + 1 * (j 2).val = (j 2).val; omega
  rw [G_at m c ⟨t.val, lt32 t⟩ ⟨(j 2).val, (j 2).isLt⟩ _ h0 h2]
  have r0 : (fun (p : Fin 64) (k : Fin 26) => iblk m c 0 t (ix3 (0 : Fin 1) p k)) = fun p k => (m ((c : Thread nD τ).loc main_arg0) : S32x64x26.Idx → EReal) (ix3 (⟨t.val, lt32 t⟩ : Fin 32) p k) :=
    funext fun p => funext fun k => blk_x m c t p k
  have r1 : (fun (o' : Fin 512) (k : Fin 26) => iblk m c 1 t (ix2 o' k)) = Cert.Relational.colsLo fun o' j => (m ((c : Thread nD τ).loc main_arg2) : S512x52.Idx → EReal) (ix2 o' j) :=
    funext fun o' => funext fun k => blk_w0lo m c t o' k
  have r2 : (fun (o' : Fin 512) (k : Fin 26) => iblk m c 2 t (ix2 o' k)) = Cert.Relational.colsHi fun o' j => (m ((c : Thread nD τ).loc main_arg2) : S512x52.Idx → EReal) (ix2 o' j) :=
    funext fun o' => funext fun k => blk_w0hi m c t o' k
  have r3 : (fun (o' : Fin 512) => iblk m c 3 t (ix1 o')) = fun o' => (m ((c : Thread nD τ).loc main_arg3) : S512.Idx → EReal) (ix1 o') := funext fun o' => blk_b0 m c t o'
  have r4 : (fun (o' : Fin 512) (k : Fin 512) => iblk m c 4 t (ix2 o' k)) = fun o' k => (m ((c : Thread nD τ).loc main_arg4) : S512x512.Idx → EReal) (ix2 o' k) := funext fun o' => funext fun k => blk_w1 m c t o' k
  have r5 : (fun (o' : Fin 512) => iblk m c 5 t (ix1 o')) = fun o' => (m ((c : Thread nD τ).loc main_arg5) : S512.Idx → EReal) (ix1 o') := funext fun o' => blk_b1 m c t o'
  have r6 : (fun (o' : Fin 512) (k : Fin 512) => iblk m c 6 t (ix2 o' k)) = fun o' k => (m ((c : Thread nD τ).loc main_arg6) : S512x512.Idx → EReal) (ix2 o' k) := funext fun o' => funext fun k => blk_w2 m c t o' k
  have r7 : (fun (o' : Fin 512) => iblk m c 7 t (ix1 o')) = fun o' => (m ((c : Thread nD τ).loc main_arg7) : S512.Idx → EReal) (ix1 o') := funext fun o' => blk_b2 m c t o'
  have r8 : (fun (o' : Fin 512) (k : Fin 512) => iblk m c 8 t (ix2 o' k)) = fun o' k => (m ((c : Thread nD τ).loc main_arg8) : S512x512.Idx → EReal) (ix2 o' k) := funext fun o' => funext fun k => blk_w3 m c t o' k
  have r9 : (fun (o' : Fin 512) => iblk m c 9 t (ix1 o')) = fun o' => (m ((c : Thread nD τ).loc main_arg9) : S512.Idx → EReal) (ix1 o') := funext fun o' => blk_b3 m c t o'
  rw [r0, r1, r2, r3, r4, r5, r6, r7, r8, r9]

/-- An index of the output array is in point `t`'s block iff each coordinate is in the block's range. -/
theorem mem_blk (t : Fin cfg0.N) (i : S32x1x512.Idx) :
    i ∈ ((cfg0.win 10).blk t).view.set ↔ ∀ a : Fin 3, win0_10.index t a * S1x1x512.size a ≤ (i a).val ∧ (i a).val < win0_10.index t a * S1x1x512.size a + S1x1x512.size a := by
  show i ∈ ((View.whole main_v8).slice (win0_10.rect t)).set ↔ _
  rw [View.set_slice_whole, Rect.mem_set_unit]
  exact Iff.rfl

/-- Row `b` of the output is written by point `b`. -/
theorem cover (i : S32x1x512.Idx) : ∃ t : Fin cfg0.N, (cfg0.win 10).flush t = true ∧ i ∈ ((cfg0.win 10).blk t).view.set := by
  have hi0 : (i 0).val < 32 := (i 0).isLt
  have hi1 : (i 1).val < 1 := (i 1).isLt
  have hi2 : (i 2).val < 512 := (i 2).isLt
  have hN : cfg0.N = 32 := N_0
  refine ⟨⟨(i 0).val, by omega⟩, flush0_10 _, ?_⟩
  rw [mem_blk]
  obtain ⟨-, -, -, -, -, -, -, -, -, -, -, -, -, -, -, -, -, e0, e1, e2⟩ := idx_facts ⟨(i 0).val, by omega⟩
  intro a
  match a with
  | ⟨0, _⟩ => show win0_10.index _ (0 : Fin 3) * 1 ≤ (i 0).val ∧ (i 0).val < win0_10.index _ (0 : Fin 3) * 1 + 1; rw [e0]; show (i 0).val * 1 ≤ (i 0).val ∧ (i 0).val < (i 0).val * 1 + 1; omega
  | ⟨1, _⟩ => show win0_10.index _ (1 : Fin 3) * 1 ≤ (i 1).val ∧ (i 1).val < win0_10.index _ (1 : Fin 3) * 1 + 1; rw [e1]; omega
  | ⟨2, _⟩ => show win0_10.index _ (2 : Fin 3) * 512 ≤ (i 2).val ∧ (i 2).val < win0_10.index _ (2 : Fin 3) * 512 + 512; rw [e2]; omega

/-- The output array after the region. -/
theorem final (hbody : BodyIs) (c : Dev nD) : (dats m 0 c).arrAt 10 cfg0.N = G m c :=
  (dats m 0 c).arrAt_eq_of_cover 10 (G m c) (fun t _ => flushed_eq m hbody c t) (cover)

end Cert.KernelAgg

end
-- ==== Proof.KernelTail.lean ====
/-
  The idealized kernel's result: the shared last part of the program (`Cert.Tail.tail`) applied to the region's output
  array, reshaped from [32, 1, 512] to [32, 512], and to the arguments the region never touches.
-/
import proofs.«121392_j6966436954182_2_alg».proof.Proof.KernelArray
import proofs.«121392_j6966436954182_2_alg».proof.Proof.Tail

set_option maxRecDepth 16384

noncomputable section

namespace Cert.KernelAgg

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen

variable (m : (ℓ : Loc nD τ sig) → Buf (Elt Ideal) ℓ)

set_option maxHeartbeats 8000000 in
/-- The host operations after the region, from any contents of the buffers they read: the shared chain of the reshaped
    region output and the untouched arguments. -/
theorem after_tail (Wv : Valuation τ sig (Elt Ideal)) :
    StableHlo.after (List.flatten [hostOps1, hostOps1_1, hostOps1_2, hostOps1_3, hostOps1_4, hostOps1_5]) Wv (Proc.devRef .tc main_v28)
      = Cert.Tail.tail (shapeCast S32x512 (Wv (Proc.devRef .tc main_v8)) shapeCasts_S32x1x512_S32x512)
          (Wv (Proc.devRef .tc main_arg1)) (Wv (Proc.devRef .tc main_arg10)) (Wv (Proc.devRef .tc main_arg11))
          (Wv (Proc.devRef .tc main_arg12)) (Wv (Proc.devRef .tc main_arg13)) (Wv (Proc.devRef .tc main_arg14)) (Wv (Proc.devRef .tc main_arg15)) := by
  simp only [hostOps1, hostOps1_1, hostOps1_2, hostOps1_3, hostOps1_4, hostOps1_5, List.flatten_cons, List.flatten_nil, List.append_nil,
    List.cons_append, List.nil_append]
  after_results_simp
  unfold Cert.Tail.tail Cert.Tail.logSoftmax Cert.Tail.centred Cert.Tail.logits
  rfl

end Cert.KernelAgg

end
-- ==== Proof.KernelRun.lean ====
/-
  The idealized kernel's run, read: every weakly fair execution terminates with the result at the shared last part of
  the program applied to the aggregated features the region computed, and with the arguments unchanged.
-/
import proofs.«121392_j6966436954182_2_alg».proof.Proof.KernelTail

set_option maxRecDepth 16384

noncomputable section

namespace Cert.KernelAgg

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen

variable (m : (ℓ : Loc nD τ sig) → Buf (Elt Ideal) ℓ)

/-- The kernel's result as a function of the launch memory. -/
def result (c : Dev nD) : FVec Ideal S32x28 .f32 :=
  Cert.Tail.tail (shapeCast S32x512 (G m c) shapeCasts_S32x1x512_S32x512) (m ((c.tc : Thread nD τ).loc main_arg1)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))

/-- What the host operations after the region leave in the result buffer. -/
theorem result_eq (hbody : BodyIs) (c : Dev nD) :
    Pipeline.afterTail₀ cfgs (dats m) 0 (V0 m) [hostOps1, hostOps1_1, hostOps1_2, hostOps1_3, hostOps1_4, hostOps1_5] c main_v28 = result m c := by
  unfold Pipeline.afterTail₀ result
  refine (after_tail _).trans ?_
  have h8 : Pipeline.withArrays (cfgs (0 : Fin 1)).spec c (V0 m c) (fun w => (dats m 0 c).arrAt w (cfgs (0 : Fin 1)).N) (Proc.devRef .tc main_v8) = G m c :=
    (Pipeline.withArrays_arr spec0 launch0.win.arr_inj c (V0 m c) (fun w => (dats m 0 c).arrAt w cfg0.N) 10).trans (final m hbody c)
  have h1a : Pipeline.withArrays (cfgs (0 : Fin 1)).spec c (V0 m c) (fun w => (dats m 0 c).arrAt w (cfgs (0 : Fin 1)).N) (Proc.devRef .tc main_arg1) = m ((c.tc : Thread nD τ).loc main_arg1) :=
    (Pipeline.withArrays_of_ne spec0 c (V0 m c) (fun w => (dats m 0 c).arrAt w cfg0.N) main_arg1 (by decide)).trans (V_main_arg1 m c)
  have h10a : Pipeline.withArrays (cfgs (0 : Fin 1)).spec c (V0 m c) (fun w => (dats m 0 c).arrAt w (cfgs (0 : Fin 1)).N) (Proc.devRef .tc main_arg10) = m ((c.tc : Thread nD τ).loc main_arg10) :=
    (Pipeline.withArrays_of_ne spec0 c (V0 m c) (fun w => (dats m 0 c).arrAt w cfg0.N) main_arg10 (by decide)).trans (V_main_arg10 m c)
  have h11a : Pipeline.withArrays (cfgs (0 : Fin 1)).spec c (V0 m c) (fun w => (dats m 0 c).arrAt w (cfgs (0 : Fin 1)).N) (Proc.devRef .tc main_arg11) = m ((c.tc : Thread nD τ).loc main_arg11) :=
    (Pipeline.withArrays_of_ne spec0 c (V0 m c) (fun w => (dats m 0 c).arrAt w cfg0.N) main_arg11 (by decide)).trans (V_main_arg11 m c)
  have h12a : Pipeline.withArrays (cfgs (0 : Fin 1)).spec c (V0 m c) (fun w => (dats m 0 c).arrAt w (cfgs (0 : Fin 1)).N) (Proc.devRef .tc main_arg12) = m ((c.tc : Thread nD τ).loc main_arg12) :=
    (Pipeline.withArrays_of_ne spec0 c (V0 m c) (fun w => (dats m 0 c).arrAt w cfg0.N) main_arg12 (by decide)).trans (V_main_arg12 m c)
  have h13a : Pipeline.withArrays (cfgs (0 : Fin 1)).spec c (V0 m c) (fun w => (dats m 0 c).arrAt w (cfgs (0 : Fin 1)).N) (Proc.devRef .tc main_arg13) = m ((c.tc : Thread nD τ).loc main_arg13) :=
    (Pipeline.withArrays_of_ne spec0 c (V0 m c) (fun w => (dats m 0 c).arrAt w cfg0.N) main_arg13 (by decide)).trans (V_main_arg13 m c)
  have h14a : Pipeline.withArrays (cfgs (0 : Fin 1)).spec c (V0 m c) (fun w => (dats m 0 c).arrAt w (cfgs (0 : Fin 1)).N) (Proc.devRef .tc main_arg14) = m ((c.tc : Thread nD τ).loc main_arg14) :=
    (Pipeline.withArrays_of_ne spec0 c (V0 m c) (fun w => (dats m 0 c).arrAt w cfg0.N) main_arg14 (by decide)).trans (V_main_arg14 m c)
  have h15a : Pipeline.withArrays (cfgs (0 : Fin 1)).spec c (V0 m c) (fun w => (dats m 0 c).arrAt w (cfgs (0 : Fin 1)).N) (Proc.devRef .tc main_arg15) = m ((c.tc : Thread nD τ).loc main_arg15) :=
    (Pipeline.withArrays_of_ne spec0 c (V0 m c) (fun w => (dats m 0 c).arrAt w cfg0.N) main_arg15 (by decide)).trans (V_main_arg15 m c)
  rw [h8, h1a, h10a, h11a, h12a, h13a, h14a, h15a]

/-- The frame run re-posted: the result named, the arguments unchanged. -/
theorem run (hbody : BodyIs) (ρ : Dev nD → PrngReg) :
    θ_run defs (onTc (τ := τ) (main (F := Ideal))) ⟨m, fun _ => 0, ρ⟩ (fun r => ∀ c : Dev nD,
      r.2.mem ((c.tc : Thread nD τ).loc main_v28) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨((h c).2 main_v28 (Pipeline.mem_restRefs_of main_v28 (by decide) (by decide))).trans (result_eq m hbody c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c))),
      (((h c).2 main_arg8 (Pipeline.mem_restRefs_of main_arg8 (by decide) (by decide))).trans (W_main_arg8 m (dats m) c)),
      ((h c).1 9).trans (((dats m 0 c).arrAt_in 9 rfl _).trans ((A_eq m c 9).trans (V_main_arg9 m c))),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c))⟩)
    (run_main m ρ)

end Cert.KernelAgg

end
-- ==== Proof.RefAgg.lean ====
/-
  The reference program's aggregated pair features, read one element at a time.

  For a batch element `b` and an output feature `o`, the reference's sum over the 4096 pair rows is the function
  `hsumR` of the specification: row `b * 4096 + r` of the flattened pair array holds the 52 joined features of
  the pair `(r / 64, r % 64)`, each dense layer acts on one row at a time, and the sum starts from the zero word.
-/
import proofs.«121392_j6966436954182_2_alg».proof.Proof.Gen.ReferenceIdeal.Read
import proofs.«121392_j6966436954182_2_alg».proof.Proof.Spec

noncomputable section

namespace Cert.RefAgg

open Idealize.ShloMosaic
open Idealize.ShloMosaic.ValueIdx (ix1 ix2 ix3 ix4)

/-- The types of the reference's arguments, as the generated reading of the program spells them. -/
abbrev TX : Type := (⟨Cert.ReferenceIdeal.S32x64x26, .f32⟩ : BufTy).Contents (Elt Ideal)
abbrev TW0 : Type := (⟨Cert.ReferenceIdeal.S512x52, .f32⟩ : BufTy).Contents (Elt Ideal)
abbrev TB : Type := (⟨Cert.ReferenceIdeal.S512, .f32⟩ : BufTy).Contents (Elt Ideal)
abbrev TW : Type := (⟨Cert.ReferenceIdeal.S512x512, .f32⟩ : BufTy).Contents (Elt Ideal)

/-- One dense layer on one row: the contraction of the row with the transposed weights, plus the bias broadcast
    over the rows, clamped at the zero word. -/
theorem row_v17 (x0 : TX) (x2 : TW0) (x3 : TB) (x4 : TW) (x5 : TB) (R : Fin 131072) (o : Fin 512) :
    ReferenceIdeal.Read.val_main_v17 (F := Ideal) x0 x2 x3 x4 x5 (ix2 R o)
      = Relational.denseRow (fun o' k => x4 (ix2 o' k)) (fun o' => x5 (ix1 o'))
          (fun k => ReferenceIdeal.Read.val_main_v11 (F := Ideal) x0 x2 x3 (ix2 R k)) o := by
  unfold Relational.denseRow
  refine (ReferenceIdeal.Read.val_main_v17_apply x0 x2 x3 x4 x5 _).trans ?_
  refine congrArg₂ max ?_ ?_
  · refine (ReferenceIdeal.Read.val_main_v16_apply x0 x2 x3 x4 x5 _).trans ?_
    refine congrArg₂ (· + ·) ?_ ?_
    · refine (ReferenceIdeal.Read.val_main_v13_apply x0 x2 x3 x4 _).trans (Finset.sum_congr rfl fun k _ => ?_)
      refine congrArg₂ (· * ·) (congrArg _ ?_) ?_
      · funext a
        match a with
        | ⟨0, _⟩ => rfl
        | ⟨1, _⟩ => rfl
      · refine (ReferenceIdeal.Read.val_main_v12_apply x4 _).trans (congrArg x4 ?_)
        funext a
        match a with
        | ⟨0, _⟩ => rfl
        | ⟨1, _⟩ => rfl
    · refine (ReferenceIdeal.Read.val_main_v15_apply x5 _).trans ?_
      refine (ReferenceIdeal.Read.val_main_v14_apply x5 _).trans (congrArg x5 ?_)
      funext a
      match a with
      | ⟨0, _⟩ => rfl
  · exact ReferenceIdeal.Read.val_main_call1_v0_apply _

/-- One dense layer on one row: the contraction of the row with the transposed weights, plus the bias broadcast
    over the rows, clamped at the zero word. -/
theorem row_v23 (x0 : TX) (x2 : TW0) (x3 : TB) (x4 : TW) (x5 : TB) (x6 : TW) (x7 : TB) (R : Fin 131072) (o : Fin 512) :
    ReferenceIdeal.Read.val_main_v23 (F := Ideal) x0 x2 x3 x4 x5 x6 x7 (ix2 R o)
      = Relational.denseRow (fun o' k => x6 (ix2 o' k)) (fun o' => x7 (ix1 o'))
          (fun k => ReferenceIdeal.Read.val_main_v17 (F := Ideal) x0 x2 x3 x4 x5 (ix2 R k)) o := by
  unfold Relational.denseRow
  refine (ReferenceIdeal.Read.val_main_v23_apply x0 x2 x3 x4 x5 x6 x7 _).trans ?_
  refine congrArg₂ max ?_ ?_
  · refine (ReferenceIdeal.Read.val_main_v22_apply x0 x2 x3 x4 x5 x6 x7 _).trans ?_
    refine congrArg₂ (· + ·) ?_ ?_
    · refine (ReferenceIdeal.Read.val_main_v19_apply x0 x2 x3 x4 x5 x6 _).trans (Finset.sum_congr rfl fun k _ => ?_)
      refine congrArg₂ (· * ·) (congrArg _ ?_) ?_
      · funext a
        match a with
        | ⟨0, _⟩ => rfl
        | ⟨1, _⟩ => rfl
      · refine (ReferenceIdeal.Read.val_main_v18_apply x6 _).trans (congrArg x6 ?_)
        funext a
        match a with
        | ⟨0, _⟩ => rfl
        | ⟨1, _⟩ => rfl
    · refine (ReferenceIdeal.Read.val_main_v21_apply x7 _).trans ?_
      refine (ReferenceIdeal.Read.val_main_v20_apply x7 _).trans (congrArg x7 ?_)
      funext a
      match a with
      | ⟨0, _⟩ => rfl
  · exact ReferenceIdeal.Read.val_main_call2_v0_apply _

/-- One dense layer on one row: the contraction of the row with the transposed weights, plus the bias broadcast
    over the rows, clamped at the zero word. -/
theorem row_v29 (x0 : TX) (x2 : TW0) (x3 : TB) (x4 : TW) (x5 : TB) (x6 : TW) (x7 : TB) (x8 : TW) (x9 : TB) (R : Fin 131072) (o : Fin 512) :
    ReferenceIdeal.Read.val_main_v29 (F := Ideal) x0 x2 x3 x4 x5 x6 x7 x8 x9 (ix2 R o)
      = Relational.denseRow (fun o' k => x8 (ix2 o' k)) (fun o' => x9 (ix1 o'))
          (fun k => ReferenceIdeal.Read.val_main_v23 (F := Ideal) x0 x2 x3 x4 x5 x6 x7 (ix2 R k)) o := by
  unfold Relational.denseRow
  refine (ReferenceIdeal.Read.val_main_v29_apply x0 x2 x3 x4 x5 x6 x7 x8 x9 _).trans ?_
  refine congrArg₂ max ?_ ?_
  · refine (ReferenceIdeal.Read.val_main_v28_apply x0 x2 x3 x4 x5 x6 x7 x8 x9 _).trans ?_
    refine congrArg₂ (· + ·) ?_ ?_
    · refine (ReferenceIdeal.Read.val_main_v25_apply x0 x2 x3 x4 x5 x6 x7 x8 _).trans (Finset.sum_congr rfl fun k _ => ?_)
      refine congrArg₂ (· * ·) (congrArg _ ?_) ?_
      · funext a
        match a with
        | ⟨0, _⟩ => rfl
        | ⟨1, _⟩ => rfl
      · refine (ReferenceIdeal.Read.val_main_v24_apply x8 _).trans (congrArg x8 ?_)
        funext a
        match a with
        | ⟨0, _⟩ => rfl
        | ⟨1, _⟩ => rfl
    · refine (ReferenceIdeal.Read.val_main_v27_apply x9 _).trans ?_
      refine (ReferenceIdeal.Read.val_main_v26_apply x9 _).trans (congrArg x9 ?_)
      funext a
      match a with
      | ⟨0, _⟩ => rfl
  · exact ReferenceIdeal.Read.val_main_call3_v0_apply _

/-- Row `b * 4096 + r` of the flattened pair array. -/
abbrev rowIdx (b : Fin 32) (r : Fin 4096) : Fin 131072 :=
  ⟨b.val * 4096 + r.val, by have := b.isLt; have := r.isLt; omega⟩

/-- The joined features of the pair `(p, q)` of batch element `b`: the first 26 are object `q`'s (the array
    broadcast along the first object axis), the last 26 are object `p`'s (broadcast along the second). -/
theorem v4_at (x0 : TX) (b : Fin 32) (p q : Fin 64) (j : Fin 52) :
    ReferenceIdeal.Read.val_main_v4 (F := Ideal) x0 (ix4 b p q j)
      = Relational.cat (fun p' k => x0 (ix3 b p' k)) p q j := by
  unfold Relational.cat ReferenceIdeal.Read.val_main_v4
  by_cases hj : j.val < 26
  · rw [dif_pos hj]
    refine (concatenate_pair_apply_left (t := Cert.ReferenceIdeal.S32x64x64x52) (s₁ := Cert.ReferenceIdeal.S32x64x64x26) (s₂ := Cert.ReferenceIdeal.S32x64x64x26) _ _ _ _ (ix4 b p q j) rfl (ix4 b p q (⟨j.val, hj⟩ : Fin 26)) (fun a => ?_)).trans ?_
    · match a with
      | ⟨0, _⟩ => rfl
      | ⟨1, _⟩ => rfl
      | ⟨2, _⟩ => rfl
      | ⟨3, _⟩ => rfl
    · refine (ReferenceIdeal.Read.val_main_v1_apply x0 _).trans ?_
      refine (ReferenceIdeal.Read.val_main_v0_apply x0 _).trans (congrArg x0 ?_)
      funext a
      match a with
      | ⟨0, _⟩ => rfl
      | ⟨1, _⟩ => rfl
      | ⟨2, _⟩ => rfl
  · rw [dif_neg hj]
    have hj' : j.val - 26 < 26 := by have := j.isLt; omega
    refine (concatenate_pair_apply_right (t := Cert.ReferenceIdeal.S32x64x64x52) (s₁ := Cert.ReferenceIdeal.S32x64x64x26) (s₂ := Cert.ReferenceIdeal.S32x64x64x26) _ _ _ _ (ix4 b p q j) rfl rfl (ix4 b p q (⟨j.val - 26, hj'⟩ : Fin 26))
      (fun a ha => ?_) ?_).trans ?_
    · match a with
      | ⟨0, _⟩ => rfl
      | ⟨1, _⟩ => rfl
      | ⟨2, _⟩ => rfl
      | ⟨3, _⟩ => exact absurd rfl ha
    · show j.val - 26 + 26 = j.val
      omega
    · refine (ReferenceIdeal.Read.val_main_v3_apply x0 _).trans ?_
      refine (ReferenceIdeal.Read.val_main_v2_apply x0 _).trans (congrArg x0 ?_)
      funext a
      match a with
      | ⟨0, _⟩ => rfl
      | ⟨1, _⟩ => rfl
      | ⟨2, _⟩ => rfl

/-- Row `b * 4096 + r` of the flattened pair array holds the joined features of the pair `(r / 64, r % 64)`. -/
theorem v5_at (x0 : TX) (b : Fin 32) (r : Fin 4096) (j : Fin 52) :
    ReferenceIdeal.Read.val_main_v5 (F := Ideal) x0 (ix2 (rowIdx b r) j)
      = Relational.cat (fun p' k => x0 (ix3 b p' k)) (Relational.rowP r) (Relational.rowQ r) j := by
  refine (ReferenceIdeal.Read.val_main_v5_apply x0 _).trans ?_
  refine Eq.trans (congrArg _ ?_) (v4_at x0 b (Relational.rowP r) (Relational.rowQ r) j)
  have hb := b.isLt
  have hr := r.isLt
  have hj := j.isLt
  funext a
  match a with
  | ⟨0, _⟩ => exact Fin.ext (by show ((b.val * 4096 + r.val) * 52 + j.val) / 212992 = b.val; omega)
  | ⟨1, _⟩ => exact Fin.ext (by show ((b.val * 4096 + r.val) * 52 + j.val) / 3328 % 64 = r.val / 64; omega)
  | ⟨2, _⟩ => exact Fin.ext (by show ((b.val * 4096 + r.val) * 52 + j.val) / 52 % 64 = r.val % 64; omega)
  | ⟨3, _⟩ => exact Fin.ext (by show ((b.val * 4096 + r.val) * 52 + j.val) % 52 = j.val; omega)

/-- The first layer on row `b * 4096 + r`: one contraction over the 52 joined features, plus the bias, clamped. -/
theorem row_v11 (x0 : TX) (x2 : TW0) (x3 : TB) (b : Fin 32) (r : Fin 4096) (o : Fin 512) :
    ReferenceIdeal.Read.val_main_v11 (F := Ideal) x0 x2 x3 (ix2 (rowIdx b r) o)
      = Relational.pairR (fun p k => x0 (ix3 b p k)) (fun o' j => x2 (ix2 o' j)) (fun o' => x3 (ix1 o'))
          (Relational.rowP r) (Relational.rowQ r) o := by
  unfold Relational.pairR
  refine (ReferenceIdeal.Read.val_main_v11_apply x0 x2 x3 _).trans ?_
  refine congrArg₂ max ?_ ?_
  · refine (ReferenceIdeal.Read.val_main_v10_apply x0 x2 x3 _).trans ?_
    refine congrArg₂ (· + ·) ?_ ?_
    · refine (ReferenceIdeal.Read.val_main_v7_apply x0 x2 _).trans (Finset.sum_congr rfl fun k _ => ?_)
      refine congrArg₂ (· * ·) ?_ ?_
      · refine Eq.trans (congrArg _ ?_) (v5_at x0 b r k)
        funext a
        match a with
        | ⟨0, _⟩ => rfl
        | ⟨1, _⟩ => rfl
      · refine (ReferenceIdeal.Read.val_main_v6_apply x2 _).trans (congrArg x2 ?_)
        funext a
        match a with
        | ⟨0, _⟩ => rfl
        | ⟨1, _⟩ => rfl
    · refine (ReferenceIdeal.Read.val_main_v9_apply x3 _).trans ?_
      refine (ReferenceIdeal.Read.val_main_v8_apply x3 _).trans (congrArg x3 ?_)
      funext a
      match a with
      | ⟨0, _⟩ => rfl
  · exact ReferenceIdeal.Read.val_main_call0_v0_apply _

/-- THE REFERENCE'S AGGREGATE: element `(b, o)` of the sum over the pair rows is `hsumR` of batch element `b`'s
    objects and the four layers' weights and biases, at `o`. The sum's initial value is the zero word, which is the
    extended real zero, so it disappears. -/
theorem ref_hsum
    (x0 : (⟨Cert.ReferenceIdeal.S32x64x26, .f32⟩ : BufTy).Contents (Elt Ideal))
    (x2 : (⟨Cert.ReferenceIdeal.S512x52, .f32⟩ : BufTy).Contents (Elt Ideal))
    (x3 : (⟨Cert.ReferenceIdeal.S512, .f32⟩ : BufTy).Contents (Elt Ideal))
    (x4 : (⟨Cert.ReferenceIdeal.S512x512, .f32⟩ : BufTy).Contents (Elt Ideal))
    (x5 : (⟨Cert.ReferenceIdeal.S512, .f32⟩ : BufTy).Contents (Elt Ideal))
    (x6 : (⟨Cert.ReferenceIdeal.S512x512, .f32⟩ : BufTy).Contents (Elt Ideal))
    (x7 : (⟨Cert.ReferenceIdeal.S512, .f32⟩ : BufTy).Contents (Elt Ideal))
    (x8 : (⟨Cert.ReferenceIdeal.S512x512, .f32⟩ : BufTy).Contents (Elt Ideal))
    (x9 : (⟨Cert.ReferenceIdeal.S512, .f32⟩ : BufTy).Contents (Elt Ideal))
    (b : Fin 32) (o : Fin 512) :
    Cert.ReferenceIdeal.Read.val_main_v31 (F := Ideal) x0 x2 x3 x4 x5 x6 x7 x8 x9 (ValueIdx.ix2 b o)
      = Cert.Relational.hsumR (fun p k => x0 (ValueIdx.ix3 b p k)) (fun o' j => x2 (ValueIdx.ix2 o' j)) (fun o' => x3 (ValueIdx.ix1 o'))
          (fun o' k => x4 (ValueIdx.ix2 o' k)) (fun o' => x5 (ValueIdx.ix1 o')) (fun o' k => x6 (ValueIdx.ix2 o' k)) (fun o' => x7 (ValueIdx.ix1 o'))
          (fun o' k => x8 (ValueIdx.ix2 o' k)) (fun o' => x9 (ValueIdx.ix1 o')) o := by
  unfold Relational.hsumR
  refine (ReferenceIdeal.Read.val_main_v31_apply x0 x2 x3 x4 x5 x6 x7 x8 x9 _).trans ?_
  refine Eq.trans (congrArg₂ (· + ·) ((ReferenceIdeal.Read.val_main_cst_apply _).trans Ideal.ofBits_zero_f32)
    (Finset.sum_congr rfl fun r _ => ?_)) (zero_add _)
  refine (ReferenceIdeal.Read.val_main_v30_apply x0 x2 x3 x4 x5 x6 x7 x8 x9 _).trans ?_
  refine Eq.trans (congrArg _ (?_ : _ = ix2 (rowIdx b r) o)) ?_
  · have hb := b.isLt
    have hr := r.isLt
    have ho := o.isLt
    funext a
    match a with
    | ⟨0, _⟩ => exact Fin.ext (by show ((b.val * 4096 + r.val) * 512 + o.val) / 512 = b.val * 4096 + r.val; omega)
    | ⟨1, _⟩ => exact Fin.ext (by show ((b.val * 4096 + r.val) * 512 + o.val) % 512 = o.val; omega)
  · unfold Relational.tower
    refine (row_v29 x0 x2 x3 x4 x5 x6 x7 x8 x9 (rowIdx b r) o).trans ?_
    refine congrArg (fun h => Relational.denseRow _ _ h o) ?_
    refine (funext fun k => row_v23 x0 x2 x3 x4 x5 x6 x7 (rowIdx b r) k).trans ?_
    refine congrArg (Relational.denseRow _ _) ?_
    refine (funext fun k => row_v17 x0 x2 x3 x4 x5 (rowIdx b r) k).trans ?_
    refine congrArg (Relational.denseRow _ _) ?_
    exact funext fun k => row_v11 x0 x2 x3 b r k

end Cert.RefAgg

end
-- ==== Proof.Bridge.lean ====
/-
  The two aggregates are one function.

  Entry `[b, o]` of the kernel's region output (reshaped to [32, 512]) is `hsumK` of batch element `b` with the two
  halves of `W0`; entry `[b, o]` of the reference's row sum is `hsumR` of the same data; and `hsumR = hsumK` because the
  52-term contraction splits into its two halves and `+` is commutative and associative on the extended reals.
-/
import proofs.«121392_j6966436954182_2_alg».proof.Proof.KernelRun
import proofs.«121392_j6966436954182_2_alg».proof.Proof.RefAgg

set_option maxRecDepth 16384

noncomputable section

namespace Cert.KernelAgg

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The kernel's aggregated features, reshaped, are the reference's row sums of the same arguments. -/
theorem agg_eq (c : Dev nD) :
    (shapeCast S32x512 (G m c) shapeCasts_S32x1x512_S32x512 : S32x512.Idx → EReal)
      = Cert.ReferenceIdeal.Read.val_main_v31 (F := Ideal) (m ((c.tc : Thread nD τ).loc main_arg0)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) := by
  funext i
  obtain ⟨b, o, rfl⟩ : ∃ (b : Fin 32) (o : Fin 512), i = ix2 b o := ⟨i 0, i 1, eq_ix2 i⟩
  rw [Cert.RefAgg.ref_hsum, Cert.Relational.hsumR_eq_hsumK]
  refine (shapeCast_apply (G m c) shapeCasts_S32x1x512_S32x512 (ix2 b o) (ix3 b (0 : Fin 1) o)
    (by rewrite [Shape.rowMajor_val_three, Shape.rowMajor_val_two]; show (b.val * 1 + 0) * 512 + o.val = b.val * 512 + o.val; omega)).trans ?_
  exact G_at m c b o (ix3 b (0 : Fin 1) o) rfl rfl

end Cert.KernelAgg

end
-- ==== Proof.lean ====
/-
  The certificate of the relational-layer kernel against its jnp reference, on the extended reals.

  Both programs form, for every batch element, the 4096 ordered pairs of its 64 objects, push each pair's 52 features
  through four dense layers with `max(·, 0)`, sum the 4096 rows, join the question embedding to the sum, apply three
  more dense layers and normalise the rows by `log_softmax`. The kernel differs in the first layer only: it contracts
  the two halves of the 52 features separately and adds the bias to one of the two products before joining them.

  * `Spec` states the aggregate both ways (`hsumK`, `hsumR`) and proves them equal: a sum over `Fin (26 + 26)` splits
    into its halves, and `+` is commutative and associative on the extended reals — finiteness of the inputs is
    never used.
  * `BodyAgg`: the kernel body's output block is `hsumK` of its input blocks. `KernelBlocks`, `KernelArray`: the
    blocks are the arguments' rows and column halves, and the 32 grid points' output blocks tile the output array.
    `KernelTail`, `KernelRun`: the host operations after the region, and the kernel's run with its result named.
  * `RefAgg`: the reference's row-sum stage is `hsumR` of the arguments. `RefTail`: its last stage is the shared chain
    `Tail.tail` of that stage.
  * `Bridge`: the two aggregates agree entry by entry, so the shared chain is applied to equal values.

  The three frames are the generated frame runs (the reference's is its generated run with the result dropped), and
  the idealization rewrote no operation, so `preserves` has nothing to state.
-/
import proofs.«121392_j6966436954182_2_alg».proof.Defs
import proofs.«121392_j6966436954182_2_alg».proof.Proof.Gen.Kernel
import proofs.«121392_j6966436954182_2_alg».proof.Proof.Gen.Kernel.Frame
import proofs.«121392_j6966436954182_2_alg».proof.Proof.Gen.KernelIdeal
import proofs.«121392_j6966436954182_2_alg».proof.Proof.Gen.KernelIdeal.Frame
import proofs.«121392_j6966436954182_2_alg».proof.Proof.Gen.ReferenceIdeal
import proofs.«121392_j6966436954182_2_alg».proof.Proof.Gen.Pre_finite_inputs
import proofs.«121392_j6966436954182_2_alg».proof.Proof.Gen.ReferenceIdeal.Run
import proofs.«121392_j6966436954182_2_alg».proof.Proof.Gen.ReferenceIdeal.Read
import proofs.«121392_j6966436954182_2_alg».proof.Proof.BodyAgg
import proofs.«121392_j6966436954182_2_alg».proof.Proof.RefTail
import proofs.«121392_j6966436954182_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end at the shared chain of one and the same aggregate. -/
theorem algebraic : Cert.algebraic_KernelIdeal_ReferenceIdeal := by
  intro m ρ m' ρ' _ hagree
  refine ⟨fun c => Cert.KernelAgg.result m c, Cert.KernelAgg.run m Cert.BodyAgg.body_hsum ρ, ?_⟩
  refine (θ_run Cert.ReferenceIdeal.defs _ _).mono (fun _ h c => ⟨(h c).1.trans ?_, (h c).2⟩)
    (Cert.ReferenceIdeal.Value.run (F := Ideal) m' ρ')
  show _ = Cert.KernelAgg.result m c
  obtain ⟨a0, a1, a2, a3, a4, a5, a6, a7, a8, a9, a10, a11, a12, a13, a14, a15⟩ := hagree c
  rw [Cert.ReferenceIdeal.Read.val_main_v50_eq, Cert.RefTail.v50_eq_tail, a0, a1, a2, a3, a4, a5, a6, a7, a8, a9, a10, a11, a12, a13, a14, a15]
  unfold Cert.KernelAgg.result
  rw [Cert.KernelAgg.agg_eq m c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
